-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x16 : Shape := ⟨2, ![65536, 16]⟩
abbrev S_ : Shape := ⟨0, ![]⟩

class Facts : Prop where
  bcast_S_S65536x16 : S_.BroadcastsInDim S65536x16 (![] : Fin 0 → Fin S65536x16.rank)
  reducesTo_S65536x16_S_d0_1 : S65536x16.ReducesTo [0, 1] S_
  h_S_ : 0 < S_.numel

variable [Facts]

def fn {F : FTy → Type} [FloatOps F] (main_arg0 : FVec F S65536x16 .f32) (main_arg1 : FVec F S65536x16 .f32) : IVec S_ 1 :=
  let main_v0 : FVec F S65536x16 .f32 := Host.absf main_arg0
  let main_cst : FVec F S_ .f32 := constant S_ .f32 0x7F800000#32
  let main_v1 : FVec F S65536x16 .f32 := broadcastInDim S65536x16 ![] bcast_S_S65536x16 main_cst
  let main_v2 : IVec S65536x16 1 := cmpf .olt main_v0 main_v1
  let main_c : IVec S_ 1 := constantI S_ 1 1#1
  let main_v3 : IVec S_ 1 := (fun x v => Host.reduce IntOp.andi x v reducesTo_S65536x16_S_d0_1 h_S_) main_v2 main_c
  let main_v4 : FVec F S65536x16 .f32 := Host.absf main_arg1
  let main_cst_0 : FVec F S_ .f32 := constant S_ .f32 0x7F800000#32
  let main_v5 : FVec F S65536x16 .f32 := broadcastInDim S65536x16 ![] bcast_S_S65536x16 main_cst_0
  let main_v6 : IVec S65536x16 1 := cmpf .olt main_v4 main_v5
  let main_c_1 : IVec S_ 1 := constantI S_ 1 1#1
  let main_v7 : IVec S_ 1 := (fun x v => Host.reduce IntOp.andi x v reducesTo_S65536x16_S_d0_1 h_S_) main_v6 main_c_1
  let main_v8 : IVec S_ 1 := andi main_v3 main_v7
  main_v8
-- ==== Kernel.lean ====
abbrev S65536x16 : Shape := ⟨2, ![65536, 16]⟩
abbrev S65536x696 : Shape := ⟨2, ![65536, 696]⟩
abbrev S1024x16 : Shape := ⟨2, ![1024, 16]⟩
abbrev S1024x696 : Shape := ⟨2, ![1024, 696]⟩
abbrev S1024x15 : Shape := ⟨2, ![1024, 15]⟩
abbrev S1024x1 : Shape := ⟨2, ![1024, 1]⟩
abbrev S1024x14 : Shape := ⟨2, ![1024, 14]⟩
abbrev S1024x13 : Shape := ⟨2, ![1024, 13]⟩
abbrev S1024x12 : Shape := ⟨2, ![1024, 12]⟩
abbrev S1024x11 : Shape := ⟨2, ![1024, 11]⟩
abbrev S1024x10 : Shape := ⟨2, ![1024, 10]⟩
abbrev S1024x9 : Shape := ⟨2, ![1024, 9]⟩
abbrev S1024x8 : Shape := ⟨2, ![1024, 8]⟩
abbrev S1024x7 : Shape := ⟨2, ![1024, 7]⟩
abbrev S1024x6 : Shape := ⟨2, ![1024, 6]⟩
abbrev S1024x5 : Shape := ⟨2, ![1024, 5]⟩
abbrev S1024x4 : Shape := ⟨2, ![1024, 4]⟩
abbrev S1024x3 : Shape := ⟨2, ![1024, 3]⟩
abbrev S1024x2 : Shape := ⟨2, ![1024, 2]⟩
abbrev S1024x120 : Shape := ⟨2, ![1024, 120]⟩
abbrev S1024x285 : Shape := ⟨2, ![1024, 285]⟩
abbrev S1024x275 : Shape := ⟨2, ![1024, 275]⟩

abbrev nBuf : Space → Nat
  | .hbm => 4
  | .vmem => 8
  | .smem => 0
  | _ => 0

abbrev bufTy : (tb : Table) → Fin (tcTables nBuf tb) → BufTy
  | .hbm, ⟨0, _⟩ => ⟨S65536x16, .f32⟩
  | .hbm, ⟨1, _⟩ => ⟨S65536x16, .f32⟩
  | .hbm, ⟨2, _⟩ => ⟨S65536x696, .f32⟩
  | .hbm, ⟨3, _⟩ => ⟨S65536x696, .f32⟩
  | .local _ .vmem, ⟨0, _⟩ => ⟨S1024x16, .f32⟩
  | .local _ .vmem, ⟨1, _⟩ => ⟨S1024x16, .f32⟩
  | .local _ .vmem, ⟨2, _⟩ => ⟨S1024x16, .f32⟩
  | .local _ .vmem, ⟨3, _⟩ => ⟨S1024x16, .f32⟩
  | .local _ .vmem, ⟨4, _⟩ => ⟨S1024x696, .f32⟩
  | .local _ .vmem, ⟨5, _⟩ => ⟨S1024x696, .f32⟩
  | .local _ .vmem, ⟨6, _⟩ => ⟨S1024x696, .f32⟩
  | .local _ .vmem, ⟨7, _⟩ => ⟨S1024x696, .f32⟩
  | _, _ => ⟨S65536x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x696 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x696 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1024x16_S1024x16_0_0 : ∀ a, (![0, 0] : Fin 2 → Nat) a + S1024x16.size a ≤ S1024x16.size a
  h_S1024x16 : 0 < S1024x16.numel
  inb_S1024x696_S1024x16_0_0 : ∀ a, (![0, 0] : Fin 2 → Nat) a + S1024x16.size a ≤ S1024x696.size a
  slices_S1024x16_o0_1_S1024x15 : S1024x16.Slices ![0, 1] S1024x15
  slices_S1024x16_o0_0_S1024x1 : S1024x16.Slices ![0, 0] S1024x1
  shapeCasts_S1024x1_S1024x1 : S1024x1.ShapeCasts S1024x1
  broadcasts_S1024x1_S1024x15 : S1024x1.Broadcasts S1024x15
  slices_S1024x16_o0_2_S1024x14 : S1024x16.Slices ![0, 2] S1024x14
  slices_S1024x16_o0_1_S1024x1 : S1024x16.Slices ![0, 1] S1024x1
  broadcasts_S1024x1_S1024x14 : S1024x1.Broadcasts S1024x14
  slices_S1024x16_o0_3_S1024x13 : S1024x16.Slices ![0, 3] S1024x13
  slices_S1024x16_o0_2_S1024x1 : S1024x16.Slices ![0, 2] S1024x1
  broadcasts_S1024x1_S1024x13 : S1024x1.Broadcasts S1024x13
  slices_S1024x16_o0_4_S1024x12 : S1024x16.Slices ![0, 4] S1024x12
  slices_S1024x16_o0_3_S1024x1 : S1024x16.Slices ![0, 3] S1024x1
  broadcasts_S1024x1_S1024x12 : S1024x1.Broadcasts S1024x12
  slices_S1024x16_o0_5_S1024x11 : S1024x16.Slices ![0, 5] S1024x11
  slices_S1024x16_o0_4_S1024x1 : S1024x16.Slices ![0, 4] S1024x1
  broadcasts_S1024x1_S1024x11 : S1024x1.Broadcasts S1024x11
  slices_S1024x16_o0_6_S1024x10 : S1024x16.Slices ![0, 6] S1024x10
  slices_S1024x16_o0_5_S1024x1 : S1024x16.Slices ![0, 5] S1024x1
  broadcasts_S1024x1_S1024x10 : S1024x1.Broadcasts S1024x10
  slices_S1024x16_o0_7_S1024x9 : S1024x16.Slices ![0, 7] S1024x9
  slices_S1024x16_o0_6_S1024x1 : S1024x16.Slices ![0, 6] S1024x1
  broadcasts_S1024x1_S1024x9 : S1024x1.Broadcasts S1024x9
  slices_S1024x16_o0_8_S1024x8 : S1024x16.Slices ![0, 8] S1024x8
  slices_S1024x16_o0_7_S1024x1 : S1024x16.Slices ![0, 7] S1024x1
  broadcasts_S1024x1_S1024x8 : S1024x1.Broadcasts S1024x8
  slices_S1024x16_o0_9_S1024x7 : S1024x16.Slices ![0, 9] S1024x7
  slices_S1024x16_o0_8_S1024x1 : S1024x16.Slices ![0, 8] S1024x1
  broadcasts_S1024x1_S1024x7 : S1024x1.Broadcasts S1024x7
  slices_S1024x16_o0_10_S1024x6 : S1024x16.Slices ![0, 10] S1024x6
  slices_S1024x16_o0_9_S1024x1 : S1024x16.Slices ![0, 9] S1024x1
  broadcasts_S1024x1_S1024x6 : S1024x1.Broadcasts S1024x6
  slices_S1024x16_o0_11_S1024x5 : S1024x16.Slices ![0, 11] S1024x5
  slices_S1024x16_o0_10_S1024x1 : S1024x16.Slices ![0, 10] S1024x1
  broadcasts_S1024x1_S1024x5 : S1024x1.Broadcasts S1024x5
  slices_S1024x16_o0_12_S1024x4 : S1024x16.Slices ![0, 12] S1024x4
  slices_S1024x16_o0_11_S1024x1 : S1024x16.Slices ![0, 11] S1024x1
  broadcasts_S1024x1_S1024x4 : S1024x1.Broadcasts S1024x4
  slices_S1024x16_o0_13_S1024x3 : S1024x16.Slices ![0, 13] S1024x3
  slices_S1024x16_o0_12_S1024x1 : S1024x16.Slices ![0, 12] S1024x1
  broadcasts_S1024x1_S1024x3 : S1024x1.Broadcasts S1024x3
  slices_S1024x16_o0_14_S1024x2 : S1024x16.Slices ![0, 14] S1024x2
  slices_S1024x16_o0_13_S1024x1 : S1024x16.Slices ![0, 13] S1024x1
  broadcasts_S1024x1_S1024x2 : S1024x1.Broadcasts S1024x2
  slices_S1024x16_o0_15_S1024x1 : S1024x16.Slices ![0, 15] S1024x1
  slices_S1024x16_o0_14_S1024x1 : S1024x16.Slices ![0, 14] S1024x1
  concatenates_S1024x15_S1024x14_S1024x13_S1024x12_S1024x11_S1024x10_S1024x9_S1024x8_S1024x7_S1024x6_S1024x5_S1024x4_S1024x3_S1024x2_S1024x1_S1024x120_d1 : Shape.Concatenates [S1024x15, S1024x14, S1024x13, S1024x12, S1024x11, S1024x10, S1024x9, S1024x8, S1024x7, S1024x6, S1024x5, S1024x4, S1024x3, S1024x2, S1024x1] S1024x120 1
  inb_S1024x696_S1024x120_0_16 : ∀ a, (![0, 16] : Fin 2 → Nat) a + S1024x120.size a ≤ S1024x696.size a
  h_S1024x120 : 0 < S1024x120.numel
  inb_S1024x696_S1024x14_0_31 : ∀ a, (![0, 31] : Fin 2 → Nat) a + S1024x14.size a ≤ S1024x696.size a
  h_S1024x14 : 0 < S1024x14.numel
  shapeCasts_S1024x14_S1024x14 : S1024x14.ShapeCasts S1024x14
  inb_S1024x696_S1024x1_0_16 : ∀ a, (![0, 16] : Fin 2 → Nat) a + S1024x1.size a ≤ S1024x696.size a
  h_S1024x1 : 0 < S1024x1.numel
  inb_S1024x696_S1024x13_0_45 : ∀ a, (![0, 45] : Fin 2 → Nat) a + S1024x13.size a ≤ S1024x696.size a
  h_S1024x13 : 0 < S1024x13.numel
  shapeCasts_S1024x13_S1024x13 : S1024x13.ShapeCasts S1024x13
  inb_S1024x696_S1024x1_0_17 : ∀ a, (![0, 17] : Fin 2 → Nat) a + S1024x1.size a ≤ S1024x696.size a
  inb_S1024x696_S1024x12_0_58 : ∀ a, (![0, 58] : Fin 2 → Nat) a + S1024x12.size a ≤ S1024x696.size a
  h_S1024x12 : 0 < S1024x12.numel
  shapeCasts_S1024x12_S1024x12 : S1024x12.ShapeCasts S1024x12
  inb_S1024x696_S1024x1_0_18 : ∀ a, (![0, 18] : Fin 2 → Nat) a + S1024x1.size a ≤ S1024x696.size a
  inb_S1024x696_S1024x11_0_70 : ∀ a, (![0, 70] : Fin 2 → Nat) a + S1024x11.size a ≤ S1024x696.size a
  h_S1024x11 : 0 < S1024x11.numel
  shapeCasts_S1024x11_S1024x11 : S1024x11.ShapeCasts S1024x11
  inb_S1024x696_S1024x1_0_19 : ∀ a, (![0, 19] : Fin 2 → Nat) a + S1024x1.size a ≤ S1024x696.size a
  inb_S1024x696_S1024x10_0_81 : ∀ a, (![0, 81] : Fin 2 → Nat) a + S1024x10.size a ≤ S1024x696.size a
  h_S1024x10 : 0 < S1024x10.numel
  shapeCasts_S1024x10_S1024x10 : S1024x10.ShapeCasts S1024x10
  inb_S1024x696_S1024x1_0_20 : ∀ a, (![0, 20] : Fin 2 → Nat) a + S1024x1.size a ≤ S1024x696.size a
  inb_S1024x696_S1024x9_0_91 : ∀ a, (![0, 91] : Fin 2 → Nat) a + S1024x9.size a ≤ S1024x696.size a
  h_S1024x9 : 0 < S1024x9.numel
  shapeCasts_S1024x9_S1024x9 : S1024x9.ShapeCasts S1024x9
  inb_S1024x696_S1024x1_0_21 : ∀ a, (![0, 21] : Fin 2 → Nat) a + S1024x1.size a ≤ S1024x696.size a
  inb_S1024x696_S1024x8_0_100 : ∀ a, (![0, 100] : Fin 2 → Nat) a + S1024x8.size a ≤ S1024x696.size a
  h_S1024x8 : 0 < S1024x8.numel
  shapeCasts_S1024x8_S1024x8 : S1024x8.ShapeCasts S1024x8
  inb_S1024x696_S1024x1_0_22 : ∀ a, (![0, 22] : Fin 2 → Nat) a + S1024x1.size a ≤ S1024x696.size a
  inb_S1024x696_S1024x7_0_108 : ∀ a, (![0, 108] : Fin 2 → Nat) a + S1024x7.size a ≤ S1024x696.size a
  h_S1024x7 : 0 < S1024x7.numel
  shapeCasts_S1024x7_S1024x7 : S1024x7.ShapeCasts S1024x7
  inb_S1024x696_S1024x1_0_23 : ∀ a, (![0, 23] : Fin 2 → Nat) a + S1024x1.size a ≤ S1024x696.size a
  inb_S1024x696_S1024x6_0_115 : ∀ a, (![0, 115] : Fin 2 → Nat) a + S1024x6.size a ≤ S1024x696.size a
  h_S1024x6 : 0 < S1024x6.numel
  shapeCasts_S1024x6_S1024x6 : S1024x6.ShapeCasts S1024x6
  inb_S1024x696_S1024x1_0_24 : ∀ a, (![0, 24] : Fin 2 → Nat) a + S1024x1.size a ≤ S1024x696.size a
  inb_S1024x696_S1024x5_0_121 : ∀ a, (![0, 121] : Fin 2 → Nat) a + S1024x5.size a ≤ S1024x696.size a
  h_S1024x5 : 0 < S1024x5.numel
  shapeCasts_S1024x5_S1024x5 : S1024x5.ShapeCasts S1024x5
  inb_S1024x696_S1024x1_0_25 : ∀ a, (![0, 25] : Fin 2 → Nat) a + S1024x1.size a ≤ S1024x696.size a
  inb_S1024x696_S1024x4_0_126 : ∀ a, (![0, 126] : Fin 2 → Nat) a + S1024x4.size a ≤ S1024x696.size a
  h_S1024x4 : 0 < S1024x4.numel
  shapeCasts_S1024x4_S1024x4 : S1024x4.ShapeCasts S1024x4
  inb_S1024x696_S1024x1_0_26 : ∀ a, (![0, 26] : Fin 2 → Nat) a + S1024x1.size a ≤ S1024x696.size a
  inb_S1024x696_S1024x3_0_130 : ∀ a, (![0, 130] : Fin 2 → Nat) a + S1024x3.size a ≤ S1024x696.size a
  h_S1024x3 : 0 < S1024x3.numel
  shapeCasts_S1024x3_S1024x3 : S1024x3.ShapeCasts S1024x3
  inb_S1024x696_S1024x1_0_27 : ∀ a, (![0, 27] : Fin 2 → Nat) a + S1024x1.size a ≤ S1024x696.size a
  inb_S1024x696_S1024x2_0_133 : ∀ a, (![0, 133] : Fin 2 → Nat) a + S1024x2.size a ≤ S1024x696.size a
  h_S1024x2 : 0 < S1024x2.numel
  shapeCasts_S1024x2_S1024x2 : S1024x2.ShapeCasts S1024x2
  inb_S1024x696_S1024x1_0_28 : ∀ a, (![0, 28] : Fin 2 → Nat) a + S1024x1.size a ≤ S1024x696.size a
  inb_S1024x696_S1024x1_0_135 : ∀ a, (![0, 135] : Fin 2 → Nat) a + S1024x1.size a ≤ S1024x696.size a
  inb_S1024x696_S1024x1_0_29 : ∀ a, (![0, 29] : Fin 2 → Nat) a + S1024x1.size a ≤ S1024x696.size a
  inb_S1024x696_S1024x1_0_31 : ∀ a, (![0, 31] : Fin 2 → Nat) a + S1024x1.size a ≤ S1024x696.size a
  inb_S1024x696_S1024x1_0_32 : ∀ a, (![0, 32] : Fin 2 → Nat) a + S1024x1.size a ≤ S1024x696.size a
  inb_S1024x696_S1024x1_0_33 : ∀ a, (![0, 33] : Fin 2 → Nat) a + S1024x1.size a ≤ S1024x696.size a
  inb_S1024x696_S1024x1_0_34 : ∀ a, (![0, 34] : Fin 2 → Nat) a + S1024x1.size a ≤ S1024x696.size a
  inb_S1024x696_S1024x1_0_35 : ∀ a, (![0, 35] : Fin 2 → Nat) a + S1024x1.size a ≤ S1024x696.size a
  inb_S1024x696_S1024x1_0_36 : ∀ a, (![0, 36] : Fin 2 → Nat) a + S1024x1.size a ≤ S1024x696.size a
  inb_S1024x696_S1024x1_0_37 : ∀ a, (![0, 37] : Fin 2 → Nat) a + S1024x1.size a ≤ S1024x696.size a
  inb_S1024x696_S1024x1_0_38 : ∀ a, (![0, 38] : Fin 2 → Nat) a + S1024x1.size a ≤ S1024x696.size a
  inb_S1024x696_S1024x1_0_39 : ∀ a, (![0, 39] : Fin 2 → Nat) a + S1024x1.size a ≤ S1024x696.size a
  inb_S1024x696_S1024x1_0_40 : ∀ a, (![0, 40] : Fin 2 → Nat) a + S1024x1.size a ≤ S1024x696.size a
  inb_S1024x696_S1024x1_0_41 : ∀ a, (![0, 41] : Fin 2 → Nat) a + S1024x1.size a ≤ S1024x696.size a
  inb_S1024x696_S1024x1_0_42 : ∀ a, (![0, 42] : Fin 2 → Nat) a + S1024x1.size a ≤ S1024x696.size a
  inb_S1024x696_S1024x1_0_43 : ∀ a, (![0, 43] : Fin 2 → Nat) a + S1024x1.size a ≤ S1024x696.size a
  inb_S1024x696_S1024x1_0_45 : ∀ a, (![0, 45] : Fin 2 → Nat) a + S1024x1.size a ≤ S1024x696.size a
  inb_S1024x696_S1024x1_0_46 : ∀ a, (![0, 46] : Fin 2 → Nat) a + S1024x1.size a ≤ S1024x696.size a
  inb_S1024x696_S1024x1_0_47 : ∀ a, (![0, 47] : Fin 2 → Nat) a + S1024x1.size a ≤ S1024x696.size a
  inb_S1024x696_S1024x1_0_48 : ∀ a, (![0, 48] : Fin 2 → Nat) a + S1024x1.size a ≤ S1024x696.size a
  inb_S1024x696_S1024x1_0_49 : ∀ a, (![0, 49] : Fin 2 → Nat) a + S1024x1.size a ≤ S1024x696.size a
  inb_S1024x696_S1024x1_0_50 : ∀ a, (![0, 50] : Fin 2 → Nat) a + S1024x1.size a ≤ S1024x696.size a
  inb_S1024x696_S1024x1_0_51 : ∀ a, (![0, 51] : Fin 2 → Nat) a + S1024x1.size a ≤ S1024x696.size a
  inb_S1024x696_S1024x1_0_52 : ∀ a, (![0, 52] : Fin 2 → Nat) a + S1024x1.size a ≤ S1024x696.size a
  inb_S1024x696_S1024x1_0_53 : ∀ a, (![0, 53] : Fin 2 → Nat) a + S1024x1.size a ≤ S1024x696.size a
  inb_S1024x696_S1024x1_0_54 : ∀ a, (![0, 54] : Fin 2 → Nat) a + S1024x1.size a ≤ S1024x696.size a
  inb_S1024x696_S1024x1_0_55 : ∀ a, (![0, 55] : Fin 2 → Nat) a + S1024x1.size a ≤ S1024x696.size a
  inb_S1024x696_S1024x1_0_56 : ∀ a, (![0, 56] : Fin 2 → Nat) a + S1024x1.size a ≤ S1024x696.size a
  inb_S1024x696_S1024x1_0_58 : ∀ a, (![0, 58] : Fin 2 → Nat) a + S1024x1.size a ≤ S1024x696.size a
  concatenates_S1024x14_S1024x13_S1024x12_S1024x11_S1024x10_S1024x9_S1024x8_S1024x7_S1024x6_S1024x5_S1024x4_S1024x3_S1024x2_S1024x1_S1024x13_S1024x12_S1024x11_S1024x10_S1024x9_S1024x8_S1024x7_S1024x6_S1024x5_S1024x4_S1024x3_S1024x2_S1024x1_S1024x12_S1024x11_S1024x10_S1024x9_S1024x8_S1024x7_S1024x6_S1024x5_S1024x4_S1024x3_S1024x2_S1024x1_S1024x11_S1024x285_d1 : Shape.Concatenates (S1024x14 :: S1024x13 :: S1024x12 :: S1024x11 :: S1024x10 :: S1024x9 :: S1024x8 :: S1024x7 :: S1024x6 :: S1024x5 :: S1024x4 :: S1024x3 :: S1024x2 :: S1024x1 :: S1024x13 :: S1024x12 :: S1024x11 :: S1024x10 :: S1024x9 :: S1024x8 :: S1024x7 :: S1024x6 :: S1024x5 :: S1024x4 :: S1024x3 :: S1024x2 :: S1024x1 :: S1024x12 :: S1024x11 :: S1024x10 :: S1024x9 :: S1024x8 :: S1024x7 :: S1024x6 :: S1024x5 :: S1024x4 :: S1024x3 :: S1024x2 :: S1024x1 :: S1024x11 :: []) S1024x285 1
  inb_S1024x696_S1024x285_0_136 : ∀ a, (![0, 136] : Fin 2 → Nat) a + S1024x285.size a ≤ S1024x696.size a
  h_S1024x285 : 0 < S1024x285.numel
  inb_S1024x696_S1024x1_0_59 : ∀ a, (![0, 59] : Fin 2 → Nat) a + S1024x1.size a ≤ S1024x696.size a
  inb_S1024x696_S1024x1_0_60 : ∀ a, (![0, 60] : Fin 2 → Nat) a + S1024x1.size a ≤ S1024x696.size a
  inb_S1024x696_S1024x1_0_61 : ∀ a, (![0, 61] : Fin 2 → Nat) a + S1024x1.size a ≤ S1024x696.size a
  inb_S1024x696_S1024x1_0_62 : ∀ a, (![0, 62] : Fin 2 → Nat) a + S1024x1.size a ≤ S1024x696.size a
  inb_S1024x696_S1024x1_0_63 : ∀ a, (![0, 63] : Fin 2 → Nat) a + S1024x1.size a ≤ S1024x696.size a
  inb_S1024x696_S1024x1_0_64 : ∀ a, (![0, 64] : Fin 2 → Nat) a + S1024x1.size a ≤ S1024x696.size a
  inb_S1024x696_S1024x1_0_65 : ∀ a, (![0, 65] : Fin 2 → Nat) a + S1024x1.size a ≤ S1024x696.size a
  inb_S1024x696_S1024x1_0_66 : ∀ a, (![0, 66] : Fin 2 → Nat) a + S1024x1.size a ≤ S1024x696.size a
  inb_S1024x696_S1024x1_0_67 : ∀ a, (![0, 67] : Fin 2 → Nat) a + S1024x1.size a ≤ S1024x696.size a
  inb_S1024x696_S1024x1_0_68 : ∀ a, (![0, 68] : Fin 2 → Nat) a + S1024x1.size a ≤ S1024x696.size a
  inb_S1024x696_S1024x1_0_70 : ∀ a, (![0, 70] : Fin 2 → Nat) a + S1024x1.size a ≤ S1024x696.size a
  inb_S1024x696_S1024x1_0_71 : ∀ a, (![0, 71] : Fin 2 → Nat) a + S1024x1.size a ≤ S1024x696.size a
  inb_S1024x696_S1024x1_0_72 : ∀ a, (![0, 72] : Fin 2 → Nat) a + S1024x1.size a ≤ S1024x696.size a
  inb_S1024x696_S1024x1_0_73 : ∀ a, (![0, 73] : Fin 2 → Nat) a + S1024x1.size a ≤ S1024x696.size a
  inb_S1024x696_S1024x1_0_74 : ∀ a, (![0, 74] : Fin 2 → Nat) a + S1024x1.size a ≤ S1024x696.size a
  inb_S1024x696_S1024x1_0_75 : ∀ a, (![0, 75] : Fin 2 → Nat) a + S1024x1.size a ≤ S1024x696.size a
  inb_S1024x696_S1024x1_0_76 : ∀ a, (![0, 76] : Fin 2 → Nat) a + S1024x1.size a ≤ S1024x696.size a
  inb_S1024x696_S1024x1_0_77 : ∀ a, (![0, 77] : Fin 2 → Nat) a + S1024x1.size a ≤ S1024x696.size a
  inb_S1024x696_S1024x1_0_78 : ∀ a, (![0, 78] : Fin 2 → Nat) a + S1024x1.size a ≤ S1024x696.size a
  inb_S1024x696_S1024x1_0_79 : ∀ a, (![0, 79] : Fin 2 → Nat) a + S1024x1.size a ≤ S1024x696.size a
  inb_S1024x696_S1024x1_0_81 : ∀ a, (![0, 81] : Fin 2 → Nat) a + S1024x1.size a ≤ S1024x696.size a
  inb_S1024x696_S1024x1_0_82 : ∀ a, (![0, 82] : Fin 2 → Nat) a + S1024x1.size a ≤ S1024x696.size a
  inb_S1024x696_S1024x1_0_83 : ∀ a, (![0, 83] : Fin 2 → Nat) a + S1024x1.size a ≤ S1024x696.size a
  inb_S1024x696_S1024x1_0_84 : ∀ a, (![0, 84] : Fin 2 → Nat) a + S1024x1.size a ≤ S1024x696.size a
  inb_S1024x696_S1024x1_0_85 : ∀ a, (![0, 85] : Fin 2 → Nat) a + S1024x1.size a ≤ S1024x696.size a
  inb_S1024x696_S1024x1_0_86 : ∀ a, (![0, 86] : Fin 2 → Nat) a + S1024x1.size a ≤ S1024x696.size a
  inb_S1024x696_S1024x1_0_87 : ∀ a, (![0, 87] : Fin 2 → Nat) a + S1024x1.size a ≤ S1024x696.size a
  inb_S1024x696_S1024x1_0_88 : ∀ a, (![0, 88] : Fin 2 → Nat) a + S1024x1.size a ≤ S1024x696.size a
  inb_S1024x696_S1024x1_0_89 : ∀ a, (![0, 89] : Fin 2 → Nat) a + S1024x1.size a ≤ S1024x696.size a
  inb_S1024x696_S1024x1_0_91 : ∀ a, (![0, 91] : Fin 2 → Nat) a + S1024x1.size a ≤ S1024x696.size a
  inb_S1024x696_S1024x1_0_92 : ∀ a, (![0, 92] : Fin 2 → Nat) a + S1024x1.size a ≤ S1024x696.size a
  inb_S1024x696_S1024x1_0_93 : ∀ a, (![0, 93] : Fin 2 → Nat) a + S1024x1.size a ≤ S1024x696.size a
  inb_S1024x696_S1024x1_0_94 : ∀ a, (![0, 94] : Fin 2 → Nat) a + S1024x1.size a ≤ S1024x696.size a
  inb_S1024x696_S1024x1_0_95 : ∀ a, (![0, 95] : Fin 2 → Nat) a + S1024x1.size a ≤ S1024x696.size a
  inb_S1024x696_S1024x1_0_96 : ∀ a, (![0, 96] : Fin 2 → Nat) a + S1024x1.size a ≤ S1024x696.size a
  inb_S1024x696_S1024x1_0_97 : ∀ a, (![0, 97] : Fin 2 → Nat) a + S1024x1.size a ≤ S1024x696.size a
  inb_S1024x696_S1024x1_0_98 : ∀ a, (![0, 98] : Fin 2 → Nat) a + S1024x1.size a ≤ S1024x696.size a
  inb_S1024x696_S1024x1_0_100 : ∀ a, (![0, 100] : Fin 2 → Nat) a + S1024x1.size a ≤ S1024x696.size a
  inb_S1024x696_S1024x1_0_101 : ∀ a, (![0, 101] : Fin 2 → Nat) a + S1024x1.size a ≤ S1024x696.size a
  inb_S1024x696_S1024x1_0_102 : ∀ a, (![0, 102] : Fin 2 → Nat) a + S1024x1.size a ≤ S1024x696.size a
  inb_S1024x696_S1024x1_0_103 : ∀ a, (![0, 103] : Fin 2 → Nat) a + S1024x1.size a ≤ S1024x696.size a
  inb_S1024x696_S1024x1_0_104 : ∀ a, (![0, 104] : Fin 2 → Nat) a + S1024x1.size a ≤ S1024x696.size a
  inb_S1024x696_S1024x1_0_105 : ∀ a, (![0, 105] : Fin 2 → Nat) a + S1024x1.size a ≤ S1024x696.size a
  inb_S1024x696_S1024x1_0_106 : ∀ a, (![0, 106] : Fin 2 → Nat) a + S1024x1.size a ≤ S1024x696.size a
  inb_S1024x696_S1024x1_0_108 : ∀ a, (![0, 108] : Fin 2 → Nat) a + S1024x1.size a ≤ S1024x696.size a
  inb_S1024x696_S1024x1_0_109 : ∀ a, (![0, 109] : Fin 2 → Nat) a + S1024x1.size a ≤ S1024x696.size a
  inb_S1024x696_S1024x1_0_110 : ∀ a, (![0, 110] : Fin 2 → Nat) a + S1024x1.size a ≤ S1024x696.size a
  inb_S1024x696_S1024x1_0_111 : ∀ a, (![0, 111] : Fin 2 → Nat) a + S1024x1.size a ≤ S1024x696.size a
  inb_S1024x696_S1024x1_0_112 : ∀ a, (![0, 112] : Fin 2 → Nat) a + S1024x1.size a ≤ S1024x696.size a
  inb_S1024x696_S1024x1_0_113 : ∀ a, (![0, 113] : Fin 2 → Nat) a + S1024x1.size a ≤ S1024x696.size a
  inb_S1024x696_S1024x1_0_115 : ∀ a, (![0, 115] : Fin 2 → Nat) a + S1024x1.size a ≤ S1024x696.size a
  inb_S1024x696_S1024x1_0_116 : ∀ a, (![0, 116] : Fin 2 → Nat) a + S1024x1.size a ≤ S1024x696.size a
  inb_S1024x696_S1024x1_0_117 : ∀ a, (![0, 117] : Fin 2 → Nat) a + S1024x1.size a ≤ S1024x696.size a
  inb_S1024x696_S1024x1_0_118 : ∀ a, (![0, 118] : Fin 2 → Nat) a + S1024x1.size a ≤ S1024x696.size a
  inb_S1024x696_S1024x1_0_119 : ∀ a, (![0, 119] : Fin 2 → Nat) a + S1024x1.size a ≤ S1024x696.size a
  inb_S1024x696_S1024x1_0_121 : ∀ a, (![0, 121] : Fin 2 → Nat) a + S1024x1.size a ≤ S1024x696.size a
  inb_S1024x696_S1024x1_0_122 : ∀ a, (![0, 122] : Fin 2 → Nat) a + S1024x1.size a ≤ S1024x696.size a
  inb_S1024x696_S1024x1_0_123 : ∀ a, (![0, 123] : Fin 2 → Nat) a + S1024x1.size a ≤ S1024x696.size a
  inb_S1024x696_S1024x1_0_124 : ∀ a, (![0, 124] : Fin 2 → Nat) a + S1024x1.size a ≤ S1024x696.size a
  inb_S1024x696_S1024x1_0_126 : ∀ a, (![0, 126] : Fin 2 → Nat) a + S1024x1.size a ≤ S1024x696.size a
  inb_S1024x696_S1024x1_0_127 : ∀ a, (![0, 127] : Fin 2 → Nat) a + S1024x1.size a ≤ S1024x696.size a
  inb_S1024x696_S1024x1_0_128 : ∀ a, (![0, 128] : Fin 2 → Nat) a + S1024x1.size a ≤ S1024x696.size a
  inb_S1024x696_S1024x1_0_130 : ∀ a, (![0, 130] : Fin 2 → Nat) a + S1024x1.size a ≤ S1024x696.size a
  inb_S1024x696_S1024x1_0_131 : ∀ a, (![0, 131] : Fin 2 → Nat) a + S1024x1.size a ≤ S1024x696.size a
  inb_S1024x696_S1024x1_0_133 : ∀ a, (![0, 133] : Fin 2 → Nat) a + S1024x1.size a ≤ S1024x696.size a
  concatenates_S1024x10_S1024x9_S1024x8_S1024x7_S1024x6_S1024x5_S1024x4_S1024x3_S1024x2_S1024x1_S1024x10_S1024x9_S1024x8_S1024x7_S1024x6_S1024x5_S1024x4_S1024x3_S1024x2_S1024x1_S1024x9_S1024x8_S1024x7_S1024x6_S1024x5_S1024x4_S1024x3_S1024x2_S1024x1_S1024x8_S1024x7_S1024x6_S1024x5_S1024x4_S1024x3_S1024x2_S1024x1_S1024x7_S1024x6_S1024x5_S1024x4_S1024x3_S1024x2_S1024x1_S1024x6_S1024x5_S1024x4_S1024x3_S1024x2_S1024x1_S1024x5_S1024x4_S1024x3_S1024x2_S1024x1_S1024x4_S1024x3_S1024x2_S1024x1_S1024x3_S1024x2_S1024x1_S1024x2_S1024x1_S1024x1_S1024x275_d1 : Shape.Concatenates (S1024x10 :: S1024x9 :: S1024x8 :: S1024x7 :: S1024x6 :: S1024x5 :: S1024x4 :: S1024x3 :: S1024x2 :: S1024x1 :: S1024x10 :: S1024x9 :: S1024x8 :: S1024x7 :: S1024x6 :: S1024x5 :: S1024x4 :: S1024x3 :: S1024x2 :: S1024x1 :: S1024x9 :: S1024x8 :: S1024x7 :: S1024x6 :: S1024x5 :: S1024x4 :: S1024x3 :: S1024x2 :: S1024x1 :: S1024x8 :: S1024x7 :: S1024x6 :: S1024x5 :: S1024x4 :: S1024x3 :: S1024x2 :: S1024x1 :: S1024x7 :: S1024x6 :: S1024x5 :: S1024x4 :: S1024x3 :: S1024x2 :: S1024x1 :: S1024x6 :: S1024x5 :: S1024x4 :: S1024x3 :: S1024x2 :: S1024x1 :: S1024x5 :: S1024x4 :: S1024x3 :: S1024x2 :: S1024x1 :: S1024x4 :: S1024x3 :: S1024x2 :: S1024x1 :: S1024x3 :: S1024x2 :: S1024x1 :: S1024x2 :: S1024x1 :: S1024x1 :: []) S1024x275 1
  inb_S1024x696_S1024x275_0_421 : ∀ a, (![0, 421] : Fin 2 → Nat) a + S1024x275.size a ≤ S1024x696.size a
  h_S1024x275 : 0 < S1024x275.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S65536x16.size a
  hwx0_0 : ∀ i : grid0.Coords, EltTy.bits .f32 = 32 ∨ (Rect.block (s := S65536x16) S1024x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S65536x16.size a
  hwx0_1 : ∀ i : grid0.Coords, EltTy.bits .f32 = 32 ∨ (Rect.block (s := S65536x16) S1024x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x696.size a ≤ S65536x696.size a
  hwx0_2 : ∀ i : grid0.Coords, EltTy.bits .f32 = 32 ∨ (Rect.block (s := S65536x696) S1024x696.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x696.size a ≤ S65536x696.size a
  hwx0_3 : ∀ i : grid0.Coords, EltTy.bits .f32 = 32 ∨ (Rect.block (s := S65536x696) S1024x696.size (cc0_transform_3 i) (hinb0_3 i)).WholeWords (EltTy.packing .f32)

variable [Facts₀]

abbrev win0_0 : Pipeline.Window sig grid0 :=
  Pipeline.Window.ofSpec (Memref.whole main_arg0) S1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x696.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x696.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x16 : Shape := ⟨2, ![65536, 16]⟩
abbrev S120 : Shape := ⟨1, ![120]⟩
abbrev S560 : Shape := ⟨1, ![560]⟩
abbrev S_ : Shape := ⟨0, ![]⟩
abbrev S120x1 : Shape := ⟨2, ![120, 1]⟩
abbrev S65536x120 : Shape := ⟨2, ![65536, 120]⟩
abbrev S65536x136 : Shape := ⟨2, ![65536, 136]⟩
abbrev S560x1 : Shape := ⟨2, ![560, 1]⟩
abbrev S65536x560 : Shape := ⟨2, ![65536, 560]⟩
abbrev S65536x696 : Shape := ⟨2, ![65536, 696]⟩

abbrev nBuf : Space → Nat
  | .hbm => 120
  | .vmem => 0
  | .smem => 0
  | _ => 0

abbrev bufTy : (tb : Table) → Fin (tcTables nBuf tb) → BufTy
  | .hbm, ⟨0, _⟩ => ⟨S65536x16, .f32⟩
  | .hbm, ⟨1, _⟩ => ⟨S65536x16, .f32⟩
  | .hbm, ⟨2, _⟩ => ⟨S120, .i32⟩
  | .hbm, ⟨3, _⟩ => ⟨S120, .i1⟩
  | .hbm, ⟨4, _⟩ => ⟨S120, .i1⟩
  | .hbm, ⟨5, _⟩ => ⟨S120, .i32⟩
  | .hbm, ⟨6, _⟩ => ⟨S120, .i1⟩
  | .hbm, ⟨7, _⟩ => ⟨S120, .i1⟩
  | .hbm, ⟨8, _⟩ => ⟨S560, .i32⟩
  | .hbm, ⟨9, _⟩ => ⟨S560, .i1⟩
  | .hbm, ⟨10, _⟩ => ⟨S560, .i1⟩
  | .hbm, ⟨11, _⟩ => ⟨S560, .i32⟩
  | .hbm, ⟨12, _⟩ => ⟨S560, .i1⟩
  | .hbm, ⟨13, _⟩ => ⟨S560, .i1⟩
  | .hbm, ⟨14, _⟩ => ⟨S_, .i32⟩
  | .hbm, ⟨15, _⟩ => ⟨S120, .i32⟩
  | .hbm, ⟨16, _⟩ => ⟨S120, .i32⟩
  | .hbm, ⟨17, _⟩ => ⟨S120, .i32⟩
  | .hbm, ⟨18, _⟩ => ⟨S120x1, .i32⟩
  | .hbm, ⟨19, _⟩ => ⟨S65536x120, .f32⟩
  | .hbm, ⟨20, _⟩ => ⟨S_, .i32⟩
  | .hbm, ⟨21, _⟩ => ⟨S120, .i32⟩
  | .hbm, ⟨22, _⟩ => ⟨S120, .i32⟩
  | .hbm, ⟨23, _⟩ => ⟨S120, .i32⟩
  | .hbm, ⟨24, _⟩ => ⟨S120x1, .i32⟩
  | .hbm, ⟨25, _⟩ => ⟨S65536x120, .f32⟩
  | .hbm, ⟨26, _⟩ => ⟨S_, .i32⟩
  | .hbm, ⟨27, _⟩ => ⟨S120, .i32⟩
  | .hbm, ⟨28, _⟩ => ⟨S120, .i32⟩
  | .hbm, ⟨29, _⟩ => ⟨S120, .i32⟩
  | .hbm, ⟨30, _⟩ => ⟨S120x1, .i32⟩
  | .hbm, ⟨31, _⟩ => ⟨S65536x120, .f32⟩
  | .hbm, ⟨32, _⟩ => ⟨S_, .i32⟩
  | .hbm, ⟨33, _⟩ => ⟨S120, .i32⟩
  | .hbm, ⟨34, _⟩ => ⟨S120, .i32⟩
  | .hbm, ⟨35, _⟩ => ⟨S120, .i32⟩
  | .hbm, ⟨36, _⟩ => ⟨S120x1, .i32⟩
  | .hbm, ⟨37, _⟩ => ⟨S65536x120, .f32⟩
  | .hbm, ⟨38, _⟩ => ⟨S65536x120, .f32⟩
  | .hbm, ⟨39, _⟩ => ⟨S_, .f32⟩
  | .hbm, ⟨40, _⟩ => ⟨S65536x120, .f32⟩
  | .hbm, ⟨41, _⟩ => ⟨S65536x120, .f32⟩
  | .hbm, ⟨42, _⟩ => ⟨S65536x120, .f32⟩
  | .hbm, ⟨43, _⟩ => ⟨S65536x120, .f32⟩
  | .hbm, ⟨44, _⟩ => ⟨S_, .f32⟩
  | .hbm, ⟨45, _⟩ => ⟨S65536x120, .f32⟩
  | .hbm, ⟨46, _⟩ => ⟨S65536x120, .f32⟩
  | .hbm, ⟨47, _⟩ => ⟨S65536x120, .f32⟩
  | .hbm, ⟨48, _⟩ => ⟨S65536x120, .f32⟩
  | .hbm, ⟨49, _⟩ => ⟨S_, .f32⟩
  | .hbm, ⟨50, _⟩ => ⟨S65536x120, .f32⟩
  | .hbm, ⟨51, _⟩ => ⟨S65536x120, .f32⟩
  | .hbm, ⟨52, _⟩ => ⟨S65536x120, .f32⟩
  | .hbm, ⟨53, _⟩ => ⟨S65536x120, .f32⟩
  | .hbm, ⟨54, _⟩ => ⟨S_, .f32⟩
  | .hbm, ⟨55, _⟩ => ⟨S65536x120, .f32⟩
  | .hbm, ⟨56, _⟩ => ⟨S65536x120, .f32⟩
  | .hbm, ⟨57, _⟩ => ⟨S65536x120, .f32⟩
  | .hbm, ⟨58, _⟩ => ⟨S65536x120, .i1⟩
  | .hbm, ⟨59, _⟩ => ⟨S65536x120, .i1⟩
  | .hbm, ⟨60, _⟩ => ⟨S65536x120, .i1⟩
  | .hbm, ⟨61, _⟩ => ⟨S65536x120, .i1⟩
  | .hbm, ⟨62, _⟩ => ⟨S65536x120, .i1⟩
  | .hbm, ⟨63, _⟩ => ⟨S65536x120, .f32⟩
  | .hbm, ⟨64, _⟩ => ⟨S65536x120, .f32⟩
  | .hbm, ⟨65, _⟩ => ⟨S65536x136, .f32⟩
  | .hbm, ⟨66, _⟩ => ⟨S65536x136, .f32⟩
  | .hbm, ⟨67, _⟩ => ⟨S_, .i32⟩
  | .hbm, ⟨68, _⟩ => ⟨S560, .i32⟩
  | .hbm, ⟨69, _⟩ => ⟨S560, .i32⟩
  | .hbm, ⟨70, _⟩ => ⟨S560, .i32⟩
  | .hbm, ⟨71, _⟩ => ⟨S560x1, .i32⟩
  | .hbm, ⟨72, _⟩ => ⟨S65536x560, .f32⟩
  | .hbm, ⟨73, _⟩ => ⟨S_, .i32⟩
  | .hbm, ⟨74, _⟩ => ⟨S560, .i32⟩
  | .hbm, ⟨75, _⟩ => ⟨S560, .i32⟩
  | .hbm, ⟨76, _⟩ => ⟨S560, .i32⟩
  | .hbm, ⟨77, _⟩ => ⟨S560x1, .i32⟩
  | .hbm, ⟨78, _⟩ => ⟨S65536x560, .f32⟩
  | .hbm, ⟨79, _⟩ => ⟨S_, .i32⟩
  | .hbm, ⟨80, _⟩ => ⟨S560, .i32⟩
  | .hbm, ⟨81, _⟩ => ⟨S560, .i32⟩
  | .hbm, ⟨82, _⟩ => ⟨S560, .i32⟩
  | .hbm, ⟨83, _⟩ => ⟨S560x1, .i32⟩
  | .hbm, ⟨84, _⟩ => ⟨S65536x560, .f32⟩
  | .hbm, ⟨85, _⟩ => ⟨S_, .i32⟩
  | .hbm, ⟨86, _⟩ => ⟨S560, .i32⟩
  | .hbm, ⟨87, _⟩ => ⟨S560, .i32⟩
  | .hbm, ⟨88, _⟩ => ⟨S560, .i32⟩
  | .hbm, ⟨89, _⟩ => ⟨S560x1, .i32⟩
  | .hbm, ⟨90, _⟩ => ⟨S65536x560, .f32⟩
  | .hbm, ⟨91, _⟩ => ⟨S65536x560, .f32⟩
  | .hbm, ⟨92, _⟩ => ⟨S_, .f32⟩
  | .hbm, ⟨93, _⟩ => ⟨S65536x560, .f32⟩
  | .hbm, ⟨94, _⟩ => ⟨S65536x560, .f32⟩
  | .hbm, ⟨95, _⟩ => ⟨S65536x560, .f32⟩
  | .hbm, ⟨96, _⟩ => ⟨S65536x560, .f32⟩
  | .hbm, ⟨97, _⟩ => ⟨S_, .f32⟩
  | .hbm, ⟨98, _⟩ => ⟨S65536x560, .f32⟩
  | .hbm, ⟨99, _⟩ => ⟨S65536x560, .f32⟩
  | .hbm, ⟨100, _⟩ => ⟨S65536x560, .f32⟩
  | .hbm, ⟨101, _⟩ => ⟨S65536x560, .f32⟩
  | .hbm, ⟨102, _⟩ => ⟨S_, .f32⟩
  | .hbm, ⟨103, _⟩ => ⟨S65536x560, .f32⟩
  | .hbm, ⟨104, _⟩ => ⟨S65536x560, .f32⟩
  | .hbm, ⟨105, _⟩ => ⟨S65536x560, .f32⟩
  | .hbm, ⟨106, _⟩ => ⟨S65536x560, .f32⟩
  | .hbm, ⟨107, _⟩ => ⟨S_, .f32⟩
  | .hbm, ⟨108, _⟩ => ⟨S65536x560, .f32⟩
  | .hbm, ⟨109, _⟩ => ⟨S65536x560, .f32⟩
  | .hbm, ⟨110, _⟩ => ⟨S65536x560, .f32⟩
  | .hbm, ⟨111, _⟩ => ⟨S65536x560, .i1⟩
  | .hbm, ⟨112, _⟩ => ⟨S65536x560, .i1⟩
  | .hbm, ⟨113, _⟩ => ⟨S65536x560, .i1⟩
  | .hbm, ⟨114, _⟩ => ⟨S65536x560, .i1⟩
  | .hbm, ⟨115, _⟩ => ⟨S65536x560, .i1⟩
  | .hbm, ⟨116, _⟩ => ⟨S65536x560, .f32⟩
  | .hbm, ⟨117, _⟩ => ⟨S65536x560, .f32⟩
  | .hbm, ⟨118, _⟩ => ⟨S65536x696, .f32⟩
  | .hbm, ⟨119, _⟩ => ⟨S65536x696, .f32⟩
  | _, _ => ⟨S65536x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_c_6 : Ref sig .tc := ⟨.hbm, 9, rfl⟩
abbrev main_c_7 : Ref sig .tc := ⟨.hbm, 10, rfl⟩
abbrev main_c_8 : Ref sig .tc := ⟨.hbm, 11, rfl⟩
abbrev main_c_9 : Ref sig .tc := ⟨.hbm, 12, rfl⟩
abbrev main_c_10 : Ref sig .tc := ⟨.hbm, 13, rfl⟩
abbrev main_c_11 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c_12 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_13 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_15 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_16 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_17 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_18 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_19 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_20 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_21 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_22 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_23 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_24 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_25 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩

abbrev nD : Nat := 1
abbrev τ : Topo := Topo.v7x

variable {F : FTy → Type} [FloatOps F]

class Facts₀ : Prop where
  bcast_S_S120 : S_.BroadcastsInDim S120 (![] : Fin 0 → Fin S120.rank)
  bcast_S120_S120x1_0 : S120.BroadcastsInDim S120x1 (![0] : Fin 1 → Fin S120x1.rank)
  bcast_S_S65536x120 : S_.BroadcastsInDim S65536x120 (![] : Fin 0 → Fin S65536x120.rank)
  concatenates_S65536x16_S65536x120_S65536x136_d1 : Shape.Concatenates [S65536x16, S65536x120] S65536x136 1
  bcast_S_S560 : S_.BroadcastsInDim S560 (![] : Fin 0 → Fin S560.rank)
  bcast_S560_S560x1_0 : S560.BroadcastsInDim S560x1 (![0] : Fin 1 → Fin S560x1.rank)
  bcast_S_S65536x560 : S_.BroadcastsInDim S65536x560 (![] : Fin 0 → Fin S65536x560.rank)
  concatenates_S65536x136_S65536x560_S65536x696_d1 : Shape.Concatenates [S65536x136, S65536x560] S65536x696 1
  gather_S65536x16_S120x1_S65536x120_0_1_n_n_1_1_655361_wf : GatherDims.WF S65536x16 S120x1 S65536x120 [0] [1] [] [1] [] 1 ![65536, 1]
  gather_S65536x136_S560x1_S65536x560_0_1_n_n_1_1_655361_wf : GatherDims.WF S65536x136 S560x1 S65536x560 [0] [1] [] [1] [] 1 ![65536, 1]

variable [Facts₀]

def gather_S65536x16_S120x1_S65536x120_0_1_n_n_1_1_655361 : GatherDims S65536x16 S120x1 S65536x120 where
  offsetDims := [0]
  collapsedSliceDims := [1]
  operandBatchingDims := []
  startIndicesBatchingDims := []
  startIndexMap := [1]
  indexVectorDim := 1
  sliceSizes := ![65536, 1]
  wf := gather_S65536x16_S120x1_S65536x120_0_1_n_n_1_1_655361_wf
def gather_S65536x136_S560x1_S65536x560_0_1_n_n_1_1_655361 : GatherDims S65536x136 S560x1 S65536x560 where
  offsetDims := [0]
  collapsedSliceDims := [1]
  operandBatchingDims := []
  startIndicesBatchingDims := []
  startIndexMap := [1]
  indexVectorDim := 1
  sliceSizes := ![65536, 1]
  wf := gather_S65536x136_S560x1_S65536x560_0_1_n_n_1_1_655361_wf

class Facts : Prop extends Facts₀ where

variable [Facts]
-- ==== Proof.Spec.lean ====
/-
  The interval minimum under the admissible order K_{α,β}, and the table of all subsets of at most three of sixteen
  columns built level by level.

  An interval is a pair (l, u).  K_α(l,u) = l + α·(u − l) and K_β(l,u) = l + β·(u − l), with α and β the binary32
  words of 0.4 and 0.6.  Of a left interval L and a right interval R the minimum is R when
  K_α(R) < K_α(L), or K_α(R) = K_α(L) and K_β(R) ≤ K_β(L); otherwise it is L.  Everything here is stated for any
  float instance: nothing about the arithmetic is used beyond both programs applying the same operations.

  A row of the result has 696 columns.  Columns 0 … 15 are the input row itself (the one-element subsets);
  column 16 + q, q < 120, is the minimum of columns `tL2 q` and `tR2 q` of the first sixteen (the pairs);
  column 136 + q, q < 560, the minimum of columns `tL3 q` and `tR3 q` of the first 136 (the triples, each from two
  pairs).  The four tables are the reference's literal index tables.
-/
import proofs.«113700_j66640712564831_2_alg».proof.ReferenceIdeal
import Idealize.ShloMosaic.PureOps
import Idealize.ShloMosaic.Lib.ValueIdx

noncomputable section

namespace Cert.IntervalMin

open Idealize.ShloMosaic

variable {F : FTy → Type} [FloatOps F]

/-- K_α(l,u) = l + α·(u − l), α the binary32 word of 0.4. -/
def kAlpha (l u : F .f32) : F .f32 :=
  FloatOps.addf l (FloatOps.mulf (FloatOps.ofBits .f32 0x3ECCCCCD#32) (FloatOps.subf u l))

/-- K_β(l,u) = l + β·(u − l), β the binary32 word of 0.6. -/
def kBeta (l u : F .f32) : F .f32 :=
  FloatOps.addf l (FloatOps.mulf (FloatOps.ofBits .f32 0x3F19999A#32) (FloatOps.subf u l))

/-- The bit "the right interval (rl, ru) is the smaller": K_α(R) < K_α(L), or equality there and K_β(R) ≤ K_β(L). -/
def takeRight (ll lu rl ru : F .f32) : BitVec 1 :=
  IntOp.ori (FloatOps.cmpf .olt (kAlpha rl ru) (kAlpha ll lu))
    (IntOp.andi (FloatOps.cmpf .oeq (kAlpha rl ru) (kAlpha ll lu)) (FloatOps.cmpf .ole (kBeta rl ru) (kBeta ll lu)))

/-- The minimum of a left and a right interval. -/
def admMin (L R : F .f32 × F .f32) : F .f32 × F .f32 :=
  (Scalar.select (takeRight L.1 L.2 R.1 R.2) R.1 L.1, Scalar.select (takeRight L.1 L.2 R.1 R.2) R.2 L.2)

/-- One level: the first `n` columns are kept, column `n + q` is the minimum of the earlier columns `Lt q` (left) and
    `Rt q` (right). -/
def level (Lt Rt : Nat → Nat) (n : Nat) (prev : Nat → F .f32 × F .f32) (c : Nat) : F .f32 × F .f32 :=
  if c < n then prev c else admMin (prev (Lt (c - n))) (prev (Rt (c - n)))

/-- The left column of pair `q`. -/
def tL2 (q : Nat) : Nat := if h : q < 120 then (Cert.ReferenceIdeal.lit0 ⟨q, h⟩).toNat else 0
/-- The right column of pair `q`. -/
def tR2 (q : Nat) : Nat := if h : q < 120 then (Cert.ReferenceIdeal.lit1 ⟨q, h⟩).toNat else 0
/-- The left column of triple `q`. -/
def tL3 (q : Nat) : Nat := (Cert.ReferenceIdeal.lit2t q).toNat
/-- The right column of triple `q`. -/
def tR3 (q : Nat) : Nat := (Cert.ReferenceIdeal.lit3t q).toNat

/-- Row `p` of a sixteen-column array as a function of the column number (a number past 15 reads column 15, as a
    clamped gather does; no table entry is that large). -/
def rowOf {R : Nat} (x : (⟨2, ![R, 16]⟩ : Shape).Idx → F .f32) (p : Fin R) (c : Nat) : F .f32 :=
  x (ValueIdx.ix2 p ⟨min c 15, by omega⟩)

/-- The first 136 columns of a result row from the input rows `a` (lower ends) and `b` (upper ends). -/
def res2 (a b : Nat → F .f32) : Nat → F .f32 × F .f32 := level tL2 tR2 16 (fun c => (a c, b c))

/-- All 696 columns of a result row. -/
def res3 (a b : Nat → F .f32) : Nat → F .f32 × F .f32 := level tL3 tR3 136 (res2 a b)

/-- Below column 136 a result row is the pairs' row. -/
theorem res3_lt (a b : Nat → F .f32) {c : Nat} (h : c < 136) : res3 a b c = res2 a b c := by
  unfold res3 level; rw [if_pos h]

/-- Column 136 + q is the minimum of columns `tL3 q` and `tR3 q` of the pairs' row. -/
theorem res3_triple (a b : Nat → F .f32) (q : Nat) :
    res3 a b (136 + q) = admMin (res2 a b (tL3 q)) (res2 a b (tR3 q)) := by
  unfold res3 level; rw [if_neg (by omega), Nat.add_sub_cancel_left]

/-- Below column 16 the pairs' row is the input row. -/
theorem res2_lt (a b : Nat → F .f32) {c : Nat} (h : c < 16) : res2 a b c = (a c, b c) := by
  unfold res2 level; rw [if_pos h]

/-- Column 16 + q is the minimum of input columns `tL2 q` and `tR2 q`. -/
theorem res2_pair (a b : Nat → F .f32) (q : Nat) :
    res2 a b (16 + q) = admMin (a (tL2 q), b (tL2 q)) (a (tR2 q), b (tR2 q)) := by
  unfold res2 level; rw [if_neg (by omega), Nat.add_sub_cancel_left]

end Cert.IntervalMin

end
-- ==== Proof.BlockDefs.lean ====
/-
  One block of the kernel's result as a function of the block's two input arrays.

  A block is 1024 rows.  Row `p` of the block of lower ends is the row of all 696 interval minima built from row `p`
  of the two input blocks (`Cert.IntervalMin.res3`), first components; the block of upper ends the second components.
-/
import proofs.«113700_j66640712564831_2_alg».proof.KernelIdeal
import proofs.«113700_j66640712564831_2_alg».proof.Proof.Spec

noncomputable section

namespace Cert.KernelIdeal.BlockValue

open Cert.KernelIdeal Idealize.ShloMosaic Idealize.ShloMosaic.ValueIdx Cert.IntervalMin

variable {F : FTy → Type} [FloatOps F]

/-- The lower end at row `p`, column `n` of the result of a block whose input rows are `x0` (lower ends) and `x1`
    (upper ends). -/
def loAt (x0 x1 : Vec F S1024x16 .f32) (p : Fin 1024) (n : Nat) : F .f32 := (res3 (rowOf x0 p) (rowOf x1 p) n).1

/-- The upper end at row `p`, column `n`. -/
def upAt (x0 x1 : Vec F S1024x16 .f32) (p : Fin 1024) (n : Nat) : F .f32 := (res3 (rowOf x0 p) (rowOf x1 p) n).2

/-- The block of lower ends, all 696 columns. -/
def blockLo (x0 x1 : Vec F S1024x16 .f32) : S1024x696.Idx → F .f32 := fun j => loAt x0 x1 (j 0) (j 1).val

/-- The block of upper ends. -/
def blockUp (x0 x1 : Vec F S1024x16 .f32) : S1024x696.Idx → F .f32 := fun j => upAt x0 x1 (j 0) (j 1).val

/-- The block function at an index of a column strip: strip column `q` of the strip starting at column `o` is
    block column `o + q`. -/
theorem blockLo_emb (x0 x1 : Vec F S1024x16 .f32) (o w : Nat)
    (inb : ∀ a, (![0, o] : Fin 2 → Nat) a + (![1024, w] : Fin 2 → Nat) a ≤ S1024x696.size a) (p : Fin 1024) (q : Fin w) :
    blockLo x0 x1 ((Rect.unit (s := S1024x696) ![0, o] ![1024, w] inb).emb (ix2 p q)) = loAt x0 x1 p (o + q.val) := by
  have e0 : (Rect.unit (s := S1024x696) ![0, o] ![1024, w] inb).emb (ix2 p q) 0 = p :=
    Fin.ext (by show 0 + 1 * p.val = p.val; omega)
  have e1 : ((Rect.unit (s := S1024x696) ![0, o] ![1024, w] inb).emb (ix2 p q) 1).val = o + q.val := by
    show o + 1 * q.val = _; omega
  show loAt x0 x1 ((Rect.unit (s := S1024x696) ![0, o] ![1024, w] inb).emb (ix2 p q) 0)
    ((Rect.unit (s := S1024x696) ![0, o] ![1024, w] inb).emb (ix2 p q) 1).val = _
  rw [e0, e1]

theorem blockUp_emb (x0 x1 : Vec F S1024x16 .f32) (o w : Nat)
    (inb : ∀ a, (![0, o] : Fin 2 → Nat) a + (![1024, w] : Fin 2 → Nat) a ≤ S1024x696.size a) (p : Fin 1024) (q : Fin w) :
    blockUp x0 x1 ((Rect.unit (s := S1024x696) ![0, o] ![1024, w] inb).emb (ix2 p q)) = upAt x0 x1 p (o + q.val) := by
  have e0 : (Rect.unit (s := S1024x696) ![0, o] ![1024, w] inb).emb (ix2 p q) 0 = p :=
    Fin.ext (by show 0 + 1 * p.val = p.val; omega)
  have e1 : ((Rect.unit (s := S1024x696) ![0, o] ![1024, w] inb).emb (ix2 p q) 1).val = o + q.val := by
    show o + 1 * q.val = _; omega
  show upAt x0 x1 ((Rect.unit (s := S1024x696) ![0, o] ![1024, w] inb).emb (ix2 p q) 0)
    ((Rect.unit (s := S1024x696) ![0, o] ![1024, w] inb).emb (ix2 p q) 1).val = _
  rw [e0, e1]

end Cert.KernelIdeal.BlockValue

end
-- ==== Proof.LibColumnParts.lean ====
/-
  A row assembled from runs of source columns, read at a column.

  A concatenation along the columns of two-dimensional pieces of common height `R` is described by a list of
  triples `(w, st, d)`: the piece is `w` columns wide and its column `c` shows source column `st + d·c` of some
  row-indexed family `g` (`d = 1`: a slice of `w` consecutive source columns from `st`; `d = 0`: source column
  `st` repeated `w` times).  `src ps q` is the source column shown at result column `q`, and the concatenation at
  row `p`, column `q` is `g p (src ps q)`.  The statement is for any number of pieces of any widths.
-/
import Idealize.ShloMosaic.Lib.ValueIdx
import Idealize.ShloMosaic.Lib.Pipeline.Value

noncomputable section

namespace ColumnParts

open Idealize.ShloMosaic Idealize.ShloMosaic.ValueIdx

/-- The source column shown at result column `q` by the pieces `(w, st, d)` laid side by side (`0` past the end). -/
def src : List (Nat × Nat × Nat) → Nat → Nat
  | [], _ => 0
  | (w, st, d) :: ps, q => if q < w then st + d * q else src ps (q - w)

/-- The total width of the pieces. -/
def width (ps : List (Nat × Nat × Nat)) : Nat := (ps.map (·.1)).sum

variable {α : Type} {R : Nat}

/-- `ColsOf g xs ps`: the arrays `xs` are, piece by piece, of the widths the triples `ps` give and show the source
    columns of `g` the triples name. -/
inductive ColsOf (g : Fin R → Nat → α) : List ((s : Shape) × (s.Idx → α)) → List (Nat × Nat × Nat) → Prop
  | nil : ColsOf g [] []
  | cons {w st d : Nat} {x : (⟨2, ![R, w]⟩ : Shape).Idx → α} {xs : List ((s : Shape) × (s.Idx → α))}
      {ps : List (Nat × Nat × Nat)}
      (hx : ∀ (p : Fin R) (c : Fin w), x (ix2 p c) = g p (st + d * c.val)) (h : ColsOf g xs ps) :
      ColsOf g (⟨⟨2, ![R, w]⟩, x⟩ :: xs) ((w, st, d) :: ps)

/-- The extent along the columns that the concatenation's definition reads off a piece's shape. -/
private abbrev ext (W : Nat) (s : Shape) : Nat :=
  if h : s.rank = (⟨2, ![R, W]⟩ : Shape).rank then s.size ((1 : Fin (⟨2, ![R, W]⟩ : Shape).rank).cast h.symm) else 0

/-- The extents of pieces described by triples are the triples' widths. -/
theorem ColsOf.exts {g : Fin R → Nat → α} {xs : List ((s : Shape) × (s.Idx → α))} {ps : List (Nat × Nat × Nat)}
    (hc : ColsOf g xs ps) (W : Nat) : ((xs.map (·.1)).map (ext (R := R) W)).sum = width ps := by
  induction hc with
  | nil => rfl
  | cons hx h ih =>
    simp only [List.map_cons, List.sum_cons, width] at ih ⊢
    rw [ih]; rfl

/-- Two spellings of one list give one concatenation. -/
private theorem concatenate_congr {t : Shape} (a : Fin t.rank) {l₁ l₂ : List ((s : Shape) × (s.Idx → α))} (e : l₁ = l₂)
    (h₁ : Shape.Concatenates (l₁.map (·.1)) t a) (h₂ : Shape.Concatenates (l₂.map (·.1)) t a) (j : t.Idx) :
    concatenate t a l₁ h₁ j = concatenate t a l₂ h₂ j := by
  subst e; rfl

/-- The pieces `xs` behind any pieces `pre` already passed: at the column `q'` past the width of `pre` the
    concatenation shows `g` at the source column the triples name for `q'`. -/
theorem ColsOf.concat_apply_aux {g : Fin R → Nat → α} {xs : List ((s : Shape) × (s.Idx → α))}
    {ps : List (Nat × Nat × Nat)} (hc : ColsOf g xs ps) :
    ∀ (W : Nat) (pre : List ((s : Shape) × (s.Idx → α)))
      (h : Shape.Concatenates ((pre ++ xs).map (·.1)) ⟨2, ![R, W]⟩ 1) (p : Fin R) (q' : Nat)
      (hq : ((pre.map (·.1)).map (ext (R := R) W)).sum + q' < W),
      concatenate ⟨2, ![R, W]⟩ 1 (pre ++ xs) h (ix2 p ⟨((pre.map (·.1)).map (ext (R := R) W)).sum + q', hq⟩)
        = g p (src ps q') := by
  induction hc with
  | nil =>
    intro W pre h p q' hq
    exfalso
    have hs := h.2.2
    simp only [List.append_nil] at hs
    have : ((pre.map (·.1)).map (ext (R := R) W)).sum = W := hs
    omega
  | @cons w st d x xs ps hx hcs ih =>
    intro W pre h p q' hq
    by_cases hw : q' < w
    · -- the column falls in the first piece behind `pre`
      have hk : pre.length < (pre ++ ((⟨⟨2, ![R, w]⟩, x⟩ : (s : Shape) × (s.Idx → α)) :: xs)).length := by simp
      refine (concatenate_apply_piece (1 : Fin (⟨2, ![R, W]⟩ : Shape).rank) _ h _ pre.length hk ⟨2, ![R, w]⟩ x
        (by simp) rfl (((pre.map (·.1)).map (ext (R := R) W)).sum) (by simp [List.take_left']) (ix2 p ⟨q', hw⟩)
        (fun b hb => ?_) rfl).trans ?_
      · match b with
        | ⟨0, _⟩ => rfl
        | ⟨1, _⟩ => exact absurd rfl hb
      · rw [hx p ⟨q', hw⟩]; simp only [src, if_pos hw]
    · -- it falls further on: pass the first piece too
      have e : pre ++ ((⟨⟨2, ![R, w]⟩, x⟩ : (s : Shape) × (s.Idx → α)) :: xs) = (pre ++ [(⟨⟨2, ![R, w]⟩, x⟩ : (s : Shape) × (s.Idx → α))]) ++ xs := by simp
      have h' : Shape.Concatenates (((pre ++ [(⟨⟨2, ![R, w]⟩, x⟩ : (s : Shape) × (s.Idx → α))]) ++ xs).map (·.1)) ⟨2, ![R, W]⟩ 1 := e ▸ h
      have hsum : (((pre ++ [(⟨⟨2, ![R, w]⟩, x⟩ : (s : Shape) × (s.Idx → α))]).map (·.1)).map (ext (R := R) W)).sum
          = ((pre.map (·.1)).map (ext (R := R) W)).sum + w := by
        simp only [List.map_append, List.sum_append, List.map_cons, List.map_nil, List.sum_cons, List.sum_nil]
        rfl
      have hq2 : (((pre ++ [(⟨⟨2, ![R, w]⟩, x⟩ : (s : Shape) × (s.Idx → α))]).map (·.1)).map (ext (R := R) W)).sum + (q' - w) < W := by
        rw [hsum]; omega
      have := ih W (pre ++ [(⟨⟨2, ![R, w]⟩, x⟩ : (s : Shape) × (s.Idx → α))]) h' p (q' - w) hq2
      rw [concatenate_congr _ e h h']
      have hidx : (ix2 p ⟨((pre.map (·.1)).map (ext (R := R) W)).sum + q', hq⟩ : (⟨2, ![R, W]⟩ : Shape).Idx)
          = ix2 p ⟨(((pre ++ [(⟨⟨2, ![R, w]⟩, x⟩ : (s : Shape) × (s.Idx → α))]).map (·.1)).map (ext (R := R) W)).sum + (q' - w), hq2⟩ := by
        congr 1; apply Fin.ext; dsimp only; omega
      rw [hidx, this]
      simp only [src, if_neg hw]

/-- **A concatenation of column pieces read at a column**: at row `p` and column `q` it shows `g p (src ps q)`. -/
theorem ColsOf.concat_apply {g : Fin R → Nat → α} {xs : List ((s : Shape) × (s.Idx → α))}
    {ps : List (Nat × Nat × Nat)} (hc : ColsOf g xs ps) {W : Nat}
    (h : Shape.Concatenates (xs.map (·.1)) ⟨2, ![R, W]⟩ 1) (p : Fin R) (q : Fin W) :
    concatenate ⟨2, ![R, W]⟩ 1 xs h (ix2 p q) = g p (src ps q.val) := by
  have := hc.concat_apply_aux W [] (by simpa using h) p q.val (by simpa using q.isLt)
  simp only [List.nil_append, List.map_nil, List.sum_nil, Nat.zero_add] at this
  exact this

end ColumnParts

end
-- ==== Proof.ColumnTables.lean ====
/-
  The kernel's column layout against the reference's index tables.

  The kernel never gathers: the left operands of the 120 pairs are fifteen slices of the input row laid side by side
  (columns i+1 … 15 for i = 0 … 14), the right operands fifteen repeated columns (column i, 15 − i times); for the 560
  triples the left operands are slices of the pairs' columns and the right operands repeated pair columns, the 560
  columns cut after the first 285.  Each layout is a list of triples (width, first source column, 1 for a slice or 0
  for a repeated column); `ColumnParts.src` reads off the source column at a result column.  That these layouts name,
  column for column, the entries of the reference's literal tables is a finite check.
-/
import proofs.«113700_j66640712564831_2_alg».proof.Proof.Spec
import proofs.«113700_j66640712564831_2_alg».proof.Proof.LibColumnParts

namespace Cert.IntervalMin

open ColumnParts

/-- Left operands of the pairs: input columns i+1 … 15, for i = 0 … 14. -/
def pairL : List (Nat × Nat × Nat) :=
  [(15, 1, 1), (14, 2, 1), (13, 3, 1), (12, 4, 1), (11, 5, 1), (10, 6, 1), (9, 7, 1), (8, 8, 1), (7, 9, 1),
    (6, 10, 1), (5, 11, 1), (4, 12, 1), (3, 13, 1), (2, 14, 1), (1, 15, 1)]

/-- Right operands of the pairs: input column i repeated 15 − i times. -/
def pairR : List (Nat × Nat × Nat) :=
  [(15, 0, 0), (14, 1, 0), (13, 2, 0), (12, 3, 0), (11, 4, 0), (10, 5, 0), (9, 6, 0), (8, 7, 0), (7, 8, 0),
    (6, 9, 0), (5, 10, 0), (4, 11, 0), (3, 12, 0), (2, 13, 0), (1, 14, 0)]

/-- Left operands of triples 0 … 284: slices of the pairs' columns. -/
def tripleLA : List (Nat × Nat × Nat) :=
  [(14, 31, 1), (13, 45, 1), (12, 58, 1), (11, 70, 1), (10, 81, 1), (9, 91, 1), (8, 100, 1), (7, 108, 1),
    (6, 115, 1), (5, 121, 1), (4, 126, 1), (3, 130, 1), (2, 133, 1), (1, 135, 1), (13, 45, 1), (12, 58, 1),
    (11, 70, 1), (10, 81, 1), (9, 91, 1), (8, 100, 1), (7, 108, 1), (6, 115, 1), (5, 121, 1), (4, 126, 1),
    (3, 130, 1), (2, 133, 1), (1, 135, 1), (12, 58, 1), (11, 70, 1), (10, 81, 1), (9, 91, 1), (8, 100, 1),
    (7, 108, 1), (6, 115, 1), (5, 121, 1), (4, 126, 1), (3, 130, 1), (2, 133, 1), (1, 135, 1), (11, 70, 1)]

/-- Right operands of triples 0 … 284: repeated pair columns. -/
def tripleRA : List (Nat × Nat × Nat) :=
  [(14, 16, 0), (13, 17, 0), (12, 18, 0), (11, 19, 0), (10, 20, 0), (9, 21, 0), (8, 22, 0), (7, 23, 0),
    (6, 24, 0), (5, 25, 0), (4, 26, 0), (3, 27, 0), (2, 28, 0), (1, 29, 0), (13, 31, 0), (12, 32, 0),
    (11, 33, 0), (10, 34, 0), (9, 35, 0), (8, 36, 0), (7, 37, 0), (6, 38, 0), (5, 39, 0), (4, 40, 0),
    (3, 41, 0), (2, 42, 0), (1, 43, 0), (12, 45, 0), (11, 46, 0), (10, 47, 0), (9, 48, 0), (8, 49, 0),
    (7, 50, 0), (6, 51, 0), (5, 52, 0), (4, 53, 0), (3, 54, 0), (2, 55, 0), (1, 56, 0), (11, 58, 0)]

/-- Left operands of triples 285 … 559. -/
def tripleLB : List (Nat × Nat × Nat) :=
  [(10, 81, 1), (9, 91, 1), (8, 100, 1), (7, 108, 1), (6, 115, 1), (5, 121, 1), (4, 126, 1), (3, 130, 1),
    (2, 133, 1), (1, 135, 1), (10, 81, 1), (9, 91, 1), (8, 100, 1), (7, 108, 1), (6, 115, 1), (5, 121, 1),
    (4, 126, 1), (3, 130, 1), (2, 133, 1), (1, 135, 1), (9, 91, 1), (8, 100, 1), (7, 108, 1), (6, 115, 1),
    (5, 121, 1), (4, 126, 1), (3, 130, 1), (2, 133, 1), (1, 135, 1), (8, 100, 1), (7, 108, 1), (6, 115, 1),
    (5, 121, 1), (4, 126, 1), (3, 130, 1), (2, 133, 1), (1, 135, 1), (7, 108, 1), (6, 115, 1), (5, 121, 1),
    (4, 126, 1), (3, 130, 1), (2, 133, 1), (1, 135, 1), (6, 115, 1), (5, 121, 1), (4, 126, 1), (3, 130, 1),
    (2, 133, 1), (1, 135, 1), (5, 121, 1), (4, 126, 1), (3, 130, 1), (2, 133, 1), (1, 135, 1), (4, 126, 1),
    (3, 130, 1), (2, 133, 1), (1, 135, 1), (3, 130, 1), (2, 133, 1), (1, 135, 1), (2, 133, 1), (1, 135, 1),
    (1, 135, 1)]

/-- Right operands of triples 285 … 559. -/
def tripleRB : List (Nat × Nat × Nat) :=
  [(10, 59, 0), (9, 60, 0), (8, 61, 0), (7, 62, 0), (6, 63, 0), (5, 64, 0), (4, 65, 0), (3, 66, 0), (2, 67, 0),
    (1, 68, 0), (10, 70, 0), (9, 71, 0), (8, 72, 0), (7, 73, 0), (6, 74, 0), (5, 75, 0), (4, 76, 0),
    (3, 77, 0), (2, 78, 0), (1, 79, 0), (9, 81, 0), (8, 82, 0), (7, 83, 0), (6, 84, 0), (5, 85, 0), (4, 86, 0),
    (3, 87, 0), (2, 88, 0), (1, 89, 0), (8, 91, 0), (7, 92, 0), (6, 93, 0), (5, 94, 0), (4, 95, 0), (3, 96, 0),
    (2, 97, 0), (1, 98, 0), (7, 100, 0), (6, 101, 0), (5, 102, 0), (4, 103, 0), (3, 104, 0), (2, 105, 0),
    (1, 106, 0), (6, 108, 0), (5, 109, 0), (4, 110, 0), (3, 111, 0), (2, 112, 0), (1, 113, 0), (5, 115, 0),
    (4, 116, 0), (3, 117, 0), (2, 118, 0), (1, 119, 0), (4, 121, 0), (3, 122, 0), (2, 123, 0), (1, 124, 0),
    (3, 126, 0), (2, 127, 0), (1, 128, 0), (2, 130, 0), (1, 131, 0), (1, 133, 0)]

theorem src_pairL : ∀ q : Fin 120, src pairL q.val = tL2 q.val := by decide +kernel
theorem src_pairR : ∀ q : Fin 120, src pairR q.val = tR2 q.val := by decide +kernel
theorem src_tripleLA : ∀ q : Fin 285, src tripleLA q.val = tL3 q.val := by decide +kernel
theorem src_tripleRA : ∀ q : Fin 285, src tripleRA q.val = tR3 q.val := by decide +kernel
theorem src_tripleLB : ∀ q : Fin 275, src tripleLB q.val = tL3 (285 + q.val) := by decide +kernel
theorem src_tripleRB : ∀ q : Fin 275, src tripleRB q.val = tR3 (285 + q.val) := by decide +kernel

/-- Every triple reads pair columns only: its two operand columns lie in 16 … 135. -/
theorem triple_cols : ∀ q : Fin 560, 16 ≤ tL3 q.val ∧ tL3 q.val < 136 ∧ 16 ≤ tR3 q.val ∧ tR3 q.val < 136 := by
  decide +kernel

end Cert.IntervalMin
-- ==== Proof.BlockParts.lean ====
/-
  Reading one piece of the kernel body's column concatenations.

  The body never gathers.  Every operand array of an interval minimum is a concatenation along the columns of pieces
  of three kinds: a slice of consecutive columns of a loaded block, one column of it repeated, or — for the triples —
  such a slice or repeated column of what the body reads back from its own output buffer.  Here each kind of piece is
  read at (row p, column c): it shows one column of the source, `o + c` for a slice from `o`, `o` for a repeated
  column.  For a read-back the source is the buffer after the stores so far, which holds the block function wherever
  the earlier strips cover.
-/
import proofs.«113700_j66640712564831_2_alg».proof.Proof.Gen.KernelIdeal.Frame
import proofs.«113700_j66640712564831_2_alg».proof.Proof.BlockDefs
import proofs.«113700_j66640712564831_2_alg».proof.Proof.LibColumnParts
import proofs.«113700_j66640712564831_2_alg».proof.Proof.ColumnTables

set_option maxRecDepth 16384

noncomputable section

namespace Cert.KernelIdeal.BlockValue

open Cert.KernelIdeal Cert.KernelIdeal.Gen Idealize.ShloMosaic Idealize.ShloMosaic.ValueIdx Cert.IntervalMin ColumnParts

variable {F : FTy → Type} [FloatOps F]

/-! ## Columns of a block read at an index -/

/-- A slice of consecutive columns read at a column: column `c` of the slice is column `o + c` of the array. -/
theorem slice_cols_apply {α : Type} {R C w : Nat} (x : (⟨2, ![R, C]⟩ : Shape).Idx → α) (o : Nat)
    (h : (⟨2, ![R, C]⟩ : Shape).Slices ![0, o] ⟨2, ![R, w]⟩) (p : Fin R) (c : Fin w) :
    extractStridedSlice ⟨2, ![R, w]⟩ ![0, o] x h (ix2 p c)
      = x (ix2 p ⟨o + c.val, by have := h.2 1; simp at this; omega⟩) := by
  unfold extractStridedSlice
  refine congrArg x (funext fun a => ?_)
  match a with
  | ⟨0, _⟩ => exact Fin.ext (by simp)
  | ⟨1, _⟩ => exact Fin.ext (by simp)

/-- A one-column array repeated along the columns reads, at any column, its one column. -/
theorem bcast_col_apply {α : Type} {w : Nat} (y : (⟨2, ![1024, 1]⟩ : Shape).Idx → α)
    (h : (⟨2, ![1024, 1]⟩ : Shape).Broadcasts ⟨2, ![1024, w]⟩) (p : Fin 1024) (c : Fin w) :
    broadcastTo ⟨2, ![1024, w]⟩ y h (ix2 p c) = y (ix2 p 0) := by
  unfold broadcastTo
  refine congrArg y (funext fun a => ?_)
  match a with
  | ⟨0, _⟩ =>
    dsimp only
    split
    · rename_i h1; exact absurd (show (1024 : Nat) = 1 from h1) (by decide)
    · exact Fin.ext rfl
  | ⟨1, _⟩ =>
    dsimp only
    split
    · exact Fin.ext rfl
    · rename_i h1; exact absurd (show (1 : Nat) = 1 from rfl) h1

/-- A slice of the sixteen input columns, as the row function: column `c` of the slice is input column `o + c`. -/
theorem slice_rowOf {R w : Nat} (x : (⟨2, ![R, 16]⟩ : Shape).Idx → F .f32) (o : Nat)
    (h : (⟨2, ![R, 16]⟩ : Shape).Slices ![0, o] ⟨2, ![R, w]⟩) (p : Fin R) (c : Fin w) :
    extractStridedSlice ⟨2, ![R, w]⟩ ![0, o] x h (ix2 p c) = rowOf x p (o + 1 * c.val) := by
  refine (slice_cols_apply x o h p c).trans ?_
  unfold rowOf
  have := h.2 1; simp at this
  congr 2; apply Fin.ext; dsimp only; omega

/-- One input column repeated: every column of the piece is input column `o`. -/
theorem bcast_rowOf {w : Nat} (x : (⟨2, ![1024, 16]⟩ : Shape).Idx → F .f32) (o : Nat)
    (hs : (⟨2, ![1024, 16]⟩ : Shape).Slices ![0, o] ⟨2, ![1024, 1]⟩) (hc : (⟨2, ![1024, 1]⟩ : Shape).ShapeCasts ⟨2, ![1024, 1]⟩)
    (hb : (⟨2, ![1024, 1]⟩ : Shape).Broadcasts ⟨2, ![1024, w]⟩) (p : Fin 1024) (c : Fin w) :
    broadcastTo ⟨2, ![1024, w]⟩ (shapeCast ⟨2, ![1024, 1]⟩ (extractStridedSlice ⟨2, ![1024, 1]⟩ ![0, o] x hs) hc) hb (ix2 p c)
      = rowOf x p (o + 0 * c.val) := by
  rw [bcast_col_apply, shapeCast_self]
  refine (slice_rowOf x o hs p 0).trans ?_
  simp

/-- A one-column slice, seen as a repeated column of width one. -/
theorem slice1_rowOf {R : Nat} (x : (⟨2, ![R, 16]⟩ : Shape).Idx → F .f32) (o : Nat)
    (hs : (⟨2, ![R, 16]⟩ : Shape).Slices ![0, o] ⟨2, ![R, 1]⟩) (p : Fin R) (c : Fin 1) :
    extractStridedSlice ⟨2, ![R, 1]⟩ ![0, o] x hs (ix2 p c) = rowOf x p (o + 0 * c.val) := by
  refine (slice_rowOf x o hs p c).trans ?_
  have : c.val = 0 := by omega
  rw [this]

/-! ## Columns read back from an output buffer -/

/-- What the body reads back from its own output buffer: the strip of columns `o … o + w − 1` loaded after the stores
    `L`, when those columns are pair columns (16 ≤ … < 136) and `L` leaves `G` there. -/
theorem readback_apply {sig' : RefSig} {κ : Kind} {sp : Space} (v : View sig' κ sp S1024x696 .f32)
    (L : List (View.Piece (Elt F) S1024x696 .f32)) (G : Fin 1024 → Nat → F .f32)
    (hG : ∀ (p : Fin 1024) (n : Nat) (hn : n < 696), 16 ≤ n → n < 136 → View.canon L (ix2 p ⟨n, hn⟩) = G p n)
    (o w : Nat) (inb : ∀ a, (![0, o] : Fin 2 → Nat) a + (![1024, w] : Fin 2 → Nat) a ≤ S1024x696.size a)
    (ho : 16 ≤ o) (how : o + w ≤ 136) (p : Fin 1024) (c : Fin w) :
    v.readCov L (Rect.unit (s := S1024x696) ![0, o] ![1024, w] inb).toLoadRect (ix2 p c) = G p (o + c.val) := by
  rw [View.readCov_eq_canon']
  have e : (Rect.unit (s := S1024x696) ![0, o] ![1024, w] inb).toLoadRect.idx (ix2 p c)
      = ix2 p ⟨o + c.val, by omega⟩ := by
    funext a
    match a with
    | ⟨0, _⟩ => exact Fin.ext (by show 0 + 1 * p.val = p.val; omega)
    | ⟨1, _⟩ => exact Fin.ext (by show o + 1 * c.val = o + c.val; omega)
  show View.canon L ((Rect.unit (s := S1024x696) ![0, o] ![1024, w] inb).toLoadRect.idx (ix2 p c)) = _
  rw [e]
  exact hG p _ _ (by omega) (by omega)

/-! ## What the body loads -/

theorem zeros2 : (![0, 0] : Fin 2 → Nat) = fun _ => 0 := by
  funext a; match a with | ⟨0, _⟩ => rfl | ⟨1, _⟩ => rfl

/-- An input block as the body loads it from its staging buffer: the whole buffer, read through the whole rectangle. -/
abbrev loaded (a : Memref sig .tc .vmem S1024x16 .f32) (h : a.IsWhole) (x : Vec F S1024x16 .f32) : Vec F S1024x16 .f32 :=
  View.readAt (Elt F) a.view (Rect.unit (s := S1024x16) ![0, 0] S1024x16.size inb_S1024x16_S1024x16_0_0).toLoadRect (h.unread x)

/-- It is the block. -/
theorem loaded_eq (a : Memref sig .tc .vmem S1024x16 .f32) (h : a.IsWhole) (x : Vec F S1024x16 .f32) : loaded a h x = x := by
  unfold loaded
  rw [View.readAt_eq_ld, h.read_unread]
  exact View.ld_unit_zero (S := S1024x16) zeros2 _ x

/-! ## The pieces of the body's column concatenations -/

open Lean Elab Tactic Meta in
/-- Unfold, at the head of an equation's left side, the names the body's run gave to its values and the body's
    payload functions, until another operation is at the head. -/
elab "open_lhs" : tactic => do
  let g ← getMainGoal
  let t ← instantiateMVars (← g.getType)
  let some (_, lhs, rhs) := t.eq? | throwError "open_lhs: the goal is not an equation"
  let isName (n : Name) : Bool :=
    (`Cert.KernelIdeal.Gen.kernelRun0_A.sl).isPrefixOf n ||
      (n.getPrefix == `Cert.KernelIdeal.Gen && (n.getString!.startsWith "k0_pay"))
  let mut e := lhs
  let mut progressed := false
  repeat
    match e.getAppFn with
    | .const n _ =>
      if isName n then
        match ← delta? e (fun m => m == n) with
        | some e' => e ← whnfCore e'; progressed := true
        | none => break
      else break
    | _ => break
  unless progressed do throwError "open_lhs: nothing to unfold"
  let g' ← g.replaceTargetDefEq (← mkEq e rhs)
  replaceMainGoal [g']

/-- The pieces of a concatenation of slices of the loaded block `x`. -/
syntax "cols_slices " term:max : tactic
macro_rules
  | `(tactic| cols_slices $x) => `(tactic|
      (repeat' first | exact ColsOf.nil | refine ColsOf.cons ?_ ?_
       all_goals (intro p c; exact slice_rowOf $x _ (by decide) p c)))

/-- The pieces of a concatenation of repeated columns of the loaded block `x` (the last, of width one, a bare slice). -/
syntax "cols_repeats " term:max : tactic
macro_rules
  | `(tactic| cols_repeats $x) => `(tactic|
      (repeat' first | exact ColsOf.nil | refine ColsOf.cons ?_ ?_
       all_goals (intro p c; first
         | exact bcast_rowOf $x _ (by decide) (by decide) (by decide) p c
         | exact slice1_rowOf $x _ (by decide) p c)))

/-- The pieces of a concatenation of columns read back through the view `v` after the stores `L`: each piece is, under
    re-layings to its own shape and possibly a repetition of its one column, a strip loaded from the buffer. -/
syntax "cols_readback " term:max term:max term:max term:max : tactic
macro_rules
  | `(tactic| cols_readback $v $L $G $hG) => `(tactic|
      (repeat' first | exact ColsOf.nil | refine ColsOf.cons ?_ ?_
       all_goals (
         intro p c
         repeat (first | open_lhs | simp only [bcast_col_apply, shapeCast_self])
         exact (readback_apply $v $L $G $hG _ _ (by decide) (by decide) (by decide) p _).trans (by simp))))

end Cert.KernelIdeal.BlockValue

end
-- ==== Proof.BlockPairs.lean ====
/-
  The first two strips of a block: the sixteen input columns and the 120 pairs.

  The body stores the loaded input block into columns 0 … 15, then the 120 pair minima into columns 16 … 135.  The
  pairs' left operands are fifteen slices of the input block laid side by side, their right operands fifteen repeated
  columns; read at a column they are the input columns the reference's tables name (`src_pairL`, `src_pairR`), and
  the stored value is the interval minimum of those two columns: the strip is a strip of the block function.
-/
import proofs.«113700_j66640712564831_2_alg».proof.Proof.BlockParts

set_option maxRecDepth 16384

noncomputable section

namespace Cert.KernelIdeal.BlockValue

open Cert.KernelIdeal Cert.KernelIdeal.Gen Idealize.ShloMosaic Idealize.ShloMosaic.ValueIdx Cert.IntervalMin ColumnParts

variable {F : FTy → Type} [FloatOps F]

set_option maxHeartbeats 1600000 in
/-- The strips the body has stored into the buffer of lower ends once the pairs are done — the sixteen input columns
    and the 120 pair columns — are strips of `blockLo`. -/
theorem strips2_L (c : Dev nD) (a1 : Memref sig .tc .vmem S1024x16 .f32) (h1 : a1.IsWhole) (a2 : Memref sig .tc .vmem S1024x16 .f32) (h2 : a2.IsWhole) (x0 x1 : Vec F S1024x16 .f32) :
    ∀ pc ∈ kernelRun0_A.sl.H2_2 c a1 h1 a2 h2 x0 x1, ∀ x : pc.1.shape.Idx, pc.2 x = blockLo x0 x1 (pc.1.emb x) := by
  intro pc hpc x
  unfold kernelRun0_A.sl.H2_2 at hpc
  rcases List.mem_cons.1 hpc with rfl | hpc
  · -- the pairs: columns 16 … 135
    obtain ⟨p, q, rfl⟩ : ∃ (p : Fin 1024) (q : Fin 120), x = ix2 p q := ⟨x 0, x 1, eq_ix2 x⟩
    show (admMin (_, _) (_, _)).1 = _
    rw [blockLo_emb x0 x1 16 120 _ p q]
    unfold loAt
    rw [res3_lt _ _ (by omega), res2_pair, ← src_pairL q, ← src_pairR q]
    refine congrArg Prod.fst (congrArg₂ admMin (Prod.ext ?_ ?_) (Prod.ext ?_ ?_))
    · refine (ColsOf.concat_apply (R := 1024) (g := fun p n => rowOf (loaded a1 h1 x0) p n) (ps := pairL) ?hc ?h p q).trans
        (by rw [loaded_eq])
      case h => simp only [List.map_cons, List.map_nil]; decide
      case hc => unfold pairL; cols_slices (loaded a1 h1 x0)
    · refine (ColsOf.concat_apply (R := 1024) (g := fun p n => rowOf (loaded a2 h2 x1) p n) (ps := pairL) ?hc ?h p q).trans
        (by rw [loaded_eq])
      case h => simp only [List.map_cons, List.map_nil]; decide
      case hc => unfold pairL; cols_slices (loaded a2 h2 x1)
    · refine (ColsOf.concat_apply (R := 1024) (g := fun p n => rowOf (loaded a1 h1 x0) p n) (ps := pairR) ?hc ?h p q).trans
        (by rw [loaded_eq])
      case h => simp only [List.map_cons, List.map_nil]; decide
      case hc => unfold pairR; cols_repeats (loaded a1 h1 x0)
    · refine (ColsOf.concat_apply (R := 1024) (g := fun p n => rowOf (loaded a2 h2 x1) p n) (ps := pairR) ?hc ?h p q).trans
        (by rw [loaded_eq])
      case h => simp only [List.map_cons, List.map_nil]; decide
      case hc => unfold pairR; cols_repeats (loaded a2 h2 x1)
  · -- the input columns 0 … 15
    rcases List.mem_singleton.1 hpc with rfl
    obtain ⟨p, q, rfl⟩ : ∃ (p : Fin 1024) (q : Fin 16), x = ix2 p q := ⟨x 0, x 1, eq_ix2 x⟩
    rw [blockLo_emb x0 x1 0 16 _ p q]
    unfold loAt
    rw [res3_lt _ _ (by omega), res2_lt _ _ (by omega)]
    show loaded a1 h1 x0 (ix2 p q) = rowOf x0 p (0 + q.val)
    rw [loaded_eq]
    unfold rowOf
    congr 2
    apply Fin.ext; dsimp only; omega

/-- So a pair column read back from that buffer is `loAt`. -/
theorem canon2_L (c : Dev nD) (a1 : Memref sig .tc .vmem S1024x16 .f32) (h1 : a1.IsWhole) (a2 : Memref sig .tc .vmem S1024x16 .f32) (h2 : a2.IsWhole) (x0 x1 : Vec F S1024x16 .f32) (p : Fin 1024) (n : Nat) (hn : n < 696) (h16 : 16 ≤ n) (h136 : n < 136) :
    View.canon (kernelRun0_A.sl.H2_2 c a1 h1 a2 h2 x0 x1) (ix2 p ⟨n, hn⟩) = loAt x0 x1 p n := by
  refine View.canon_apply_of_pieces (Val := Elt F) (S := S1024x696) (e := .f32) (blockLo x0 x1) _ (strips2_L c a1 h1 a2 h2 x0 x1) (ix2 p ⟨n, hn⟩) ?_
  unfold kernelRun0_A.sl.H2_2
  refine ⟨_, List.mem_cons_self, ?_⟩
  rw [Rect.mem_set_unit]
  intro a
  match a with
  | ⟨0, _⟩ => exact ⟨Nat.zero_le _, by show p.val < 0 + 1024; omega⟩
  | ⟨1, _⟩ => exact ⟨h16, by show n < 16 + 120; omega⟩

set_option maxHeartbeats 1600000 in
/-- The strips the body has stored into the buffer of upper ends once the pairs are done — the sixteen input columns
    and the 120 pair columns — are strips of `blockUp`. -/
theorem strips2_U (c : Dev nD) (a1 : Memref sig .tc .vmem S1024x16 .f32) (h1 : a1.IsWhole) (a2 : Memref sig .tc .vmem S1024x16 .f32) (h2 : a2.IsWhole) (x0 x1 : Vec F S1024x16 .f32) :
    ∀ pc ∈ kernelRun0_A.sl.H3_2 c a1 h1 a2 h2 x0 x1, ∀ x : pc.1.shape.Idx, pc.2 x = blockUp x0 x1 (pc.1.emb x) := by
  intro pc hpc x
  unfold kernelRun0_A.sl.H3_2 at hpc
  rcases List.mem_cons.1 hpc with rfl | hpc
  · -- the pairs: columns 16 … 135
    obtain ⟨p, q, rfl⟩ : ∃ (p : Fin 1024) (q : Fin 120), x = ix2 p q := ⟨x 0, x 1, eq_ix2 x⟩
    show (admMin (_, _) (_, _)).2 = _
    rw [blockUp_emb x0 x1 16 120 _ p q]
    unfold upAt
    rw [res3_lt _ _ (by omega), res2_pair, ← src_pairL q, ← src_pairR q]
    refine congrArg Prod.snd (congrArg₂ admMin (Prod.ext ?_ ?_) (Prod.ext ?_ ?_))
    · refine (ColsOf.concat_apply (R := 1024) (g := fun p n => rowOf (loaded a1 h1 x0) p n) (ps := pairL) ?hc ?h p q).trans
        (by rw [loaded_eq])
      case h => simp only [List.map_cons, List.map_nil]; decide
      case hc => unfold pairL; cols_slices (loaded a1 h1 x0)
    · refine (ColsOf.concat_apply (R := 1024) (g := fun p n => rowOf (loaded a2 h2 x1) p n) (ps := pairL) ?hc ?h p q).trans
        (by rw [loaded_eq])
      case h => simp only [List.map_cons, List.map_nil]; decide
      case hc => unfold pairL; cols_slices (loaded a2 h2 x1)
    · refine (ColsOf.concat_apply (R := 1024) (g := fun p n => rowOf (loaded a1 h1 x0) p n) (ps := pairR) ?hc ?h p q).trans
        (by rw [loaded_eq])
      case h => simp only [List.map_cons, List.map_nil]; decide
      case hc => unfold pairR; cols_repeats (loaded a1 h1 x0)
    · refine (ColsOf.concat_apply (R := 1024) (g := fun p n => rowOf (loaded a2 h2 x1) p n) (ps := pairR) ?hc ?h p q).trans
        (by rw [loaded_eq])
      case h => simp only [List.map_cons, List.map_nil]; decide
      case hc => unfold pairR; cols_repeats (loaded a2 h2 x1)
  · -- the input columns 0 … 15
    rcases List.mem_singleton.1 hpc with rfl
    obtain ⟨p, q, rfl⟩ : ∃ (p : Fin 1024) (q : Fin 16), x = ix2 p q := ⟨x 0, x 1, eq_ix2 x⟩
    rw [blockUp_emb x0 x1 0 16 _ p q]
    unfold upAt
    rw [res3_lt _ _ (by omega), res2_lt _ _ (by omega)]
    show loaded a2 h2 x1 (ix2 p q) = rowOf x1 p (0 + q.val)
    rw [loaded_eq]
    unfold rowOf
    congr 2
    apply Fin.ext; dsimp only; omega

/-- So a pair column read back from that buffer is `upAt`. -/
theorem canon2_U (c : Dev nD) (a1 : Memref sig .tc .vmem S1024x16 .f32) (h1 : a1.IsWhole) (a2 : Memref sig .tc .vmem S1024x16 .f32) (h2 : a2.IsWhole) (x0 x1 : Vec F S1024x16 .f32) (p : Fin 1024) (n : Nat) (hn : n < 696) (h16 : 16 ≤ n) (h136 : n < 136) :
    View.canon (kernelRun0_A.sl.H3_2 c a1 h1 a2 h2 x0 x1) (ix2 p ⟨n, hn⟩) = upAt x0 x1 p n := by
  refine View.canon_apply_of_pieces (Val := Elt F) (S := S1024x696) (e := .f32) (blockUp x0 x1) _ (strips2_U c a1 h1 a2 h2 x0 x1) (ix2 p ⟨n, hn⟩) ?_
  unfold kernelRun0_A.sl.H3_2
  refine ⟨_, List.mem_cons_self, ?_⟩
  rw [Rect.mem_set_unit]
  intro a
  match a with
  | ⟨0, _⟩ => exact ⟨Nat.zero_le _, by show p.val < 0 + 1024; omega⟩
  | ⟨1, _⟩ => exact ⟨h16, by show n < 16 + 120; omega⟩

end Cert.KernelIdeal.BlockValue

end
-- ==== Proof.BlockTriplesLoA.lean ====
/-
  Triples 0 … 284, lower ends: columns 136 … 420 of the buffer of lower ends.

  Each of these columns is the interval minimum of two pair columns that the body reads back from its two output
  buffers (slices for the left operands, repeated columns for the right ones); the buffers hold the block functions on
  the pair columns (`canon2_L`, `canon2_U`), and the columns read are the ones the reference's tables name.
-/
import proofs.«113700_j66640712564831_2_alg».proof.Proof.BlockPairs

set_option maxRecDepth 16384

noncomputable section

namespace Cert.KernelIdeal.BlockValue

open Cert.KernelIdeal Cert.KernelIdeal.Gen Idealize.ShloMosaic Idealize.ShloMosaic.ValueIdx Cert.IntervalMin ColumnParts

variable {F : FTy → Type} [FloatOps F]

set_option maxHeartbeats 6400000 in
/-- With triples 0 … 284 stored too (columns 136 … 420), the buffer of lower ends still holds strips of `blockLo`: each
    of those columns is the minimum of two pair columns read back from the two buffers. -/
theorem strips3_L (c : Dev nD) (a1 : Memref sig .tc .vmem S1024x16 .f32) (h1 : a1.IsWhole) (a2 : Memref sig .tc .vmem S1024x16 .f32) (h2 : a2.IsWhole) (a3 a4 : Memref sig .tc .vmem S1024x696 .f32) (x0 x1 : Vec F S1024x16 .f32) :
    ∀ pc ∈ kernelRun0_A.sl.H2_3 c a1 h1 a2 h2 a3 a4 x0 x1, ∀ x : pc.1.shape.Idx, pc.2 x = blockLo x0 x1 (pc.1.emb x) := by
  intro pc hpc x
  unfold kernelRun0_A.sl.H2_3 at hpc
  rcases List.mem_cons.1 hpc with rfl | hpc
  · obtain ⟨p, q, rfl⟩ : ∃ (p : Fin 1024) (q : Fin 285), x = ix2 p q := ⟨x 0, x 1, eq_ix2 x⟩
    have hLo := canon2_L c a1 h1 a2 h2 x0 x1
    have hUp := canon2_U c a1 h1 a2 h2 x0 x1
    show (admMin (_, _) (_, _)).1 = _
    rw [blockLo_emb x0 x1 136 285 _ p q]
    unfold loAt
    have hl : src tripleLA q.val < 136 := by rw [src_tripleLA q]; exact (triple_cols ⟨q.val, by omega⟩).2.1
    have hr : src tripleRA q.val < 136 := by rw [src_tripleRA q]; exact (triple_cols ⟨q.val, by omega⟩).2.2.2
    rw [res3_triple, ← src_tripleLA q, ← src_tripleRA q]
    refine congrArg Prod.fst (congrArg₂ admMin (Prod.ext ?_ ?_) (Prod.ext ?_ ?_))
    · refine (ColsOf.concat_apply (R := 1024) (g := loAt x0 x1) (ps := tripleLA) ?hc ?h p q).trans ?_
      case h => simp only [List.map_cons, List.map_nil]; decide
      case hc => unfold tripleLA; cols_readback a3.view _ (loAt x0 x1) hLo
      unfold loAt; rw [res3_lt _ _ hl]
    · refine (ColsOf.concat_apply (R := 1024) (g := upAt x0 x1) (ps := tripleLA) ?hc ?h p q).trans ?_
      case h => simp only [List.map_cons, List.map_nil]; decide
      case hc => unfold tripleLA; cols_readback a4.view _ (upAt x0 x1) hUp
      unfold upAt; rw [res3_lt _ _ hl]
    · refine (ColsOf.concat_apply (R := 1024) (g := loAt x0 x1) (ps := tripleRA) ?hc ?h p q).trans ?_
      case h => simp only [List.map_cons, List.map_nil]; decide
      case hc => unfold tripleRA; cols_readback a3.view _ (loAt x0 x1) hLo
      unfold loAt; rw [res3_lt _ _ hr]
    · refine (ColsOf.concat_apply (R := 1024) (g := upAt x0 x1) (ps := tripleRA) ?hc ?h p q).trans ?_
      case h => simp only [List.map_cons, List.map_nil]; decide
      case hc => unfold tripleRA; cols_readback a4.view _ (upAt x0 x1) hUp
      unfold upAt; rw [res3_lt _ _ hr]
  · exact strips2_L c a1 h1 a2 h2 x0 x1 pc hpc x

/-- So a pair column read back after those stores is still `loAt`. -/
theorem canon3_L (c : Dev nD) (a1 : Memref sig .tc .vmem S1024x16 .f32) (h1 : a1.IsWhole) (a2 : Memref sig .tc .vmem S1024x16 .f32) (h2 : a2.IsWhole) (a3 a4 : Memref sig .tc .vmem S1024x696 .f32) (x0 x1 : Vec F S1024x16 .f32) (p : Fin 1024) (n : Nat) (hn : n < 696) (h16 : 16 ≤ n) (h136 : n < 136) :
    View.canon (kernelRun0_A.sl.H2_3 c a1 h1 a2 h2 a3 a4 x0 x1) (ix2 p ⟨n, hn⟩) = loAt x0 x1 p n := by
  refine View.canon_apply_of_pieces (Val := Elt F) (S := S1024x696) (e := .f32) (blockLo x0 x1) _ (strips3_L c a1 h1 a2 h2 a3 a4 x0 x1) (ix2 p ⟨n, hn⟩) ?_
  unfold kernelRun0_A.sl.H2_3 kernelRun0_A.sl.H2_2
  refine ⟨_, List.mem_cons_of_mem _ List.mem_cons_self, ?_⟩
  rw [Rect.mem_set_unit]
  intro a
  match a with
  | ⟨0, _⟩ => exact ⟨Nat.zero_le _, by show p.val < 0 + 1024; omega⟩
  | ⟨1, _⟩ => exact ⟨h16, by show n < 16 + 120; omega⟩

end Cert.KernelIdeal.BlockValue

end
-- ==== Proof.BlockTriplesUpA.lean ====
/-
  Triples 0 … 284, upper ends: columns 136 … 420 of the buffer of upper ends (as for the lower ends, second
  components).
-/
import proofs.«113700_j66640712564831_2_alg».proof.Proof.BlockPairs

set_option maxRecDepth 16384

noncomputable section

namespace Cert.KernelIdeal.BlockValue

open Cert.KernelIdeal Cert.KernelIdeal.Gen Idealize.ShloMosaic Idealize.ShloMosaic.ValueIdx Cert.IntervalMin ColumnParts

variable {F : FTy → Type} [FloatOps F]

set_option maxHeartbeats 6400000 in
/-- With triples 0 … 284 stored too (columns 136 … 420), the buffer of upper ends still holds strips of `blockUp`: each
    of those columns is the minimum of two pair columns read back from the two buffers. -/
theorem strips3_U (c : Dev nD) (a1 : Memref sig .tc .vmem S1024x16 .f32) (h1 : a1.IsWhole) (a2 : Memref sig .tc .vmem S1024x16 .f32) (h2 : a2.IsWhole) (a3 a4 : Memref sig .tc .vmem S1024x696 .f32) (x0 x1 : Vec F S1024x16 .f32) :
    ∀ pc ∈ kernelRun0_A.sl.H3_3 c a1 h1 a2 h2 a3 a4 x0 x1, ∀ x : pc.1.shape.Idx, pc.2 x = blockUp x0 x1 (pc.1.emb x) := by
  intro pc hpc x
  unfold kernelRun0_A.sl.H3_3 at hpc
  rcases List.mem_cons.1 hpc with rfl | hpc
  · obtain ⟨p, q, rfl⟩ : ∃ (p : Fin 1024) (q : Fin 285), x = ix2 p q := ⟨x 0, x 1, eq_ix2 x⟩
    have hLo := canon2_L c a1 h1 a2 h2 x0 x1
    have hUp := canon2_U c a1 h1 a2 h2 x0 x1
    show (admMin (_, _) (_, _)).2 = _
    rw [blockUp_emb x0 x1 136 285 _ p q]
    unfold upAt
    have hl : src tripleLA q.val < 136 := by rw [src_tripleLA q]; exact (triple_cols ⟨q.val, by omega⟩).2.1
    have hr : src tripleRA q.val < 136 := by rw [src_tripleRA q]; exact (triple_cols ⟨q.val, by omega⟩).2.2.2
    rw [res3_triple, ← src_tripleLA q, ← src_tripleRA q]
    refine congrArg Prod.snd (congrArg₂ admMin (Prod.ext ?_ ?_) (Prod.ext ?_ ?_))
    · refine (ColsOf.concat_apply (R := 1024) (g := loAt x0 x1) (ps := tripleLA) ?hc ?h p q).trans ?_
      case h => simp only [List.map_cons, List.map_nil]; decide
      case hc => unfold tripleLA; cols_readback a3.view _ (loAt x0 x1) hLo
      unfold loAt; rw [res3_lt _ _ hl]
    · refine (ColsOf.concat_apply (R := 1024) (g := upAt x0 x1) (ps := tripleLA) ?hc ?h p q).trans ?_
      case h => simp only [List.map_cons, List.map_nil]; decide
      case hc => unfold tripleLA; cols_readback a4.view _ (upAt x0 x1) hUp
      unfold upAt; rw [res3_lt _ _ hl]
    · refine (ColsOf.concat_apply (R := 1024) (g := loAt x0 x1) (ps := tripleRA) ?hc ?h p q).trans ?_
      case h => simp only [List.map_cons, List.map_nil]; decide
      case hc => unfold tripleRA; cols_readback a3.view _ (loAt x0 x1) hLo
      unfold loAt; rw [res3_lt _ _ hr]
    · refine (ColsOf.concat_apply (R := 1024) (g := upAt x0 x1) (ps := tripleRA) ?hc ?h p q).trans ?_
      case h => simp only [List.map_cons, List.map_nil]; decide
      case hc => unfold tripleRA; cols_readback a4.view _ (upAt x0 x1) hUp
      unfold upAt; rw [res3_lt _ _ hr]
  · exact strips2_U c a1 h1 a2 h2 x0 x1 pc hpc x

/-- So a pair column read back after those stores is still `upAt`. -/
theorem canon3_U (c : Dev nD) (a1 : Memref sig .tc .vmem S1024x16 .f32) (h1 : a1.IsWhole) (a2 : Memref sig .tc .vmem S1024x16 .f32) (h2 : a2.IsWhole) (a3 a4 : Memref sig .tc .vmem S1024x696 .f32) (x0 x1 : Vec F S1024x16 .f32) (p : Fin 1024) (n : Nat) (hn : n < 696) (h16 : 16 ≤ n) (h136 : n < 136) :
    View.canon (kernelRun0_A.sl.H3_3 c a1 h1 a2 h2 a3 a4 x0 x1) (ix2 p ⟨n, hn⟩) = upAt x0 x1 p n := by
  refine View.canon_apply_of_pieces (Val := Elt F) (S := S1024x696) (e := .f32) (blockUp x0 x1) _ (strips3_U c a1 h1 a2 h2 a3 a4 x0 x1) (ix2 p ⟨n, hn⟩) ?_
  unfold kernelRun0_A.sl.H3_3 kernelRun0_A.sl.H3_2
  refine ⟨_, List.mem_cons_of_mem _ List.mem_cons_self, ?_⟩
  rw [Rect.mem_set_unit]
  intro a
  match a with
  | ⟨0, _⟩ => exact ⟨Nat.zero_le _, by show p.val < 0 + 1024; omega⟩
  | ⟨1, _⟩ => exact ⟨h16, by show n < 16 + 120; omega⟩

end Cert.KernelIdeal.BlockValue

end
-- ==== Proof.BlockTriplesLoB.lean ====
/-
  Triples 285 … 559, lower ends: columns 421 … 695, and the whole block of lower ends.

  The last strip reads pair columns back after the first strip of triples was stored; those stores do not touch the
  pair columns, so the read-backs are still the block functions (`canon3_L`, `canon3_U`).  The four strips cover the
  block, so what the body leaves in the buffer is the block function.
-/
import proofs.«113700_j66640712564831_2_alg».proof.Proof.BlockTriplesLoA
import proofs.«113700_j66640712564831_2_alg».proof.Proof.BlockTriplesUpA

set_option maxRecDepth 16384

noncomputable section

namespace Cert.KernelIdeal.BlockValue

open Cert.KernelIdeal Cert.KernelIdeal.Gen Idealize.ShloMosaic Idealize.ShloMosaic.ValueIdx Cert.IntervalMin ColumnParts

variable {F : FTy → Type} [FloatOps F]

set_option maxHeartbeats 6400000 in
/-- All four strips the body leaves in the buffer of lower ends — the last, triples 285 … 559 in columns 421 … 695 —
    are strips of `blockLo`. -/
theorem strips4_L (c : Dev nD) (i : grid0.Coords) (a1 : Memref sig .tc .vmem S1024x16 .f32) (h1 : a1.IsWhole) (a2 : Memref sig .tc .vmem S1024x16 .f32) (h2 : a2.IsWhole) (a3 : Memref sig .tc .vmem S1024x696 .f32) (h3 : a3.IsWhole)
    (a4 : Memref sig .tc .vmem S1024x696 .f32) (h4 : a4.IsWhole) (x0 x1 : Vec F S1024x16 .f32) :
    ∀ pc ∈ (kernelRun0_A c i a1 h1 a2 h2 a3 h3 a4 h4 x0 x1).1, ∀ x : pc.1.shape.Idx, pc.2 x = blockLo x0 x1 (pc.1.emb x) := by
  intro pc hpc x
  unfold kernelRun0_A at hpc
  dsimp only at hpc
  rcases List.mem_cons.1 hpc with rfl | hpc
  · obtain ⟨p, q, rfl⟩ : ∃ (p : Fin 1024) (q : Fin 275), x = ix2 p q := ⟨x 0, x 1, eq_ix2 x⟩
    have hLo := canon3_L c a1 h1 a2 h2 a3 a4 x0 x1
    have hUp := canon3_U c a1 h1 a2 h2 a3 a4 x0 x1
    show (admMin (_, _) (_, _)).1 = _
    rw [blockLo_emb x0 x1 421 275 _ p q]
    unfold loAt
    have hl : src tripleLB q.val < 136 := by rw [src_tripleLB q]; exact (triple_cols ⟨285 + q.val, by omega⟩).2.1
    have hr : src tripleRB q.val < 136 := by rw [src_tripleRB q]; exact (triple_cols ⟨285 + q.val, by omega⟩).2.2.2
    rw [show 421 + q.val = 136 + (285 + q.val) by omega, res3_triple, ← src_tripleLB q, ← src_tripleRB q]
    refine congrArg Prod.fst (congrArg₂ admMin (Prod.ext ?_ ?_) (Prod.ext ?_ ?_))
    · refine (ColsOf.concat_apply (R := 1024) (g := loAt x0 x1) (ps := tripleLB) ?hc ?h p q).trans ?_
      case h => simp only [List.map_cons, List.map_nil]; decide
      case hc => unfold tripleLB; cols_readback a3.view _ (loAt x0 x1) hLo
      unfold loAt; rw [res3_lt _ _ hl]
    · refine (ColsOf.concat_apply (R := 1024) (g := upAt x0 x1) (ps := tripleLB) ?hc ?h p q).trans ?_
      case h => simp only [List.map_cons, List.map_nil]; decide
      case hc => unfold tripleLB; cols_readback a4.view _ (upAt x0 x1) hUp
      unfold upAt; rw [res3_lt _ _ hl]
    · refine (ColsOf.concat_apply (R := 1024) (g := loAt x0 x1) (ps := tripleRB) ?hc ?h p q).trans ?_
      case h => simp only [List.map_cons, List.map_nil]; decide
      case hc => unfold tripleRB; cols_readback a3.view _ (loAt x0 x1) hLo
      unfold loAt; rw [res3_lt _ _ hr]
    · refine (ColsOf.concat_apply (R := 1024) (g := upAt x0 x1) (ps := tripleRB) ?hc ?h p q).trans ?_
      case h => simp only [List.map_cons, List.map_nil]; decide
      case hc => unfold tripleRB; cols_readback a4.view _ (upAt x0 x1) hUp
      unfold upAt; rw [res3_lt _ _ hr]
  · exact strips3_L c a1 h1 a2 h2 a3 a4 x0 x1 pc hpc x

/-- **The block of lower ends the body leaves is `blockLo` of its two input blocks.** -/
theorem out0_A_2_eq (c : Dev nD) (i : grid0.Coords) (a1 : Memref sig .tc .vmem S1024x16 .f32) (h1 : a1.IsWhole) (a2 : Memref sig .tc .vmem S1024x16 .f32) (h2 : a2.IsWhole) (a3 : Memref sig .tc .vmem S1024x696 .f32) (h3 : a3.IsWhole)
    (a4 : Memref sig .tc .vmem S1024x696 .f32) (h4 : a4.IsWhole) (x0 x1 : Vec F S1024x16 .f32) :
    out0_A_2 c i a1 h1 a2 h2 a3 h3 a4 h4 x0 x1 = blockLo x0 x1 := by
  unfold out0_A_2
  rw [View.read_writes_eq_canon _ _ _ (cover0_A_2 c i a1 h1 a2 h2 a3 h3 a4 h4 x0 x1)]
  funext y
  exact View.canon_apply_of_pieces (Val := Elt F) (S := S1024x696) (e := .f32) (blockLo x0 x1) _ (strips4_L c i a1 h1 a2 h2 a3 h3 a4 h4 x0 x1) y
    (cover0_A_2 c i a1 h1 a2 h2 a3 h3 a4 h4 x0 x1 y)

end Cert.KernelIdeal.BlockValue

end
-- ==== Proof.BlockTriplesUpB.lean ====
/-
  Triples 285 … 559, upper ends: columns 421 … 695, and the whole block of upper ends.
-/
import proofs.«113700_j66640712564831_2_alg».proof.Proof.BlockTriplesLoA
import proofs.«113700_j66640712564831_2_alg».proof.Proof.BlockTriplesUpA

set_option maxRecDepth 16384

noncomputable section

namespace Cert.KernelIdeal.BlockValue

open Cert.KernelIdeal Cert.KernelIdeal.Gen Idealize.ShloMosaic Idealize.ShloMosaic.ValueIdx Cert.IntervalMin ColumnParts

variable {F : FTy → Type} [FloatOps F]

set_option maxHeartbeats 6400000 in
/-- All four strips the body leaves in the buffer of upper ends — the last, triples 285 … 559 in columns 421 … 695 —
    are strips of `blockUp`. -/
theorem strips4_U (c : Dev nD) (i : grid0.Coords) (a1 : Memref sig .tc .vmem S1024x16 .f32) (h1 : a1.IsWhole) (a2 : Memref sig .tc .vmem S1024x16 .f32) (h2 : a2.IsWhole) (a3 : Memref sig .tc .vmem S1024x696 .f32) (h3 : a3.IsWhole)
    (a4 : Memref sig .tc .vmem S1024x696 .f32) (h4 : a4.IsWhole) (x0 x1 : Vec F S1024x16 .f32) :
    ∀ pc ∈ (kernelRun0_A c i a1 h1 a2 h2 a3 h3 a4 h4 x0 x1).2.1, ∀ x : pc.1.shape.Idx, pc.2 x = blockUp x0 x1 (pc.1.emb x) := by
  intro pc hpc x
  unfold kernelRun0_A at hpc
  dsimp only at hpc
  rcases List.mem_cons.1 hpc with rfl | hpc
  · obtain ⟨p, q, rfl⟩ : ∃ (p : Fin 1024) (q : Fin 275), x = ix2 p q := ⟨x 0, x 1, eq_ix2 x⟩
    have hLo := canon3_L c a1 h1 a2 h2 a3 a4 x0 x1
    have hUp := canon3_U c a1 h1 a2 h2 a3 a4 x0 x1
    show (admMin (_, _) (_, _)).2 = _
    rw [blockUp_emb x0 x1 421 275 _ p q]
    unfold upAt
    have hl : src tripleLB q.val < 136 := by rw [src_tripleLB q]; exact (triple_cols ⟨285 + q.val, by omega⟩).2.1
    have hr : src tripleRB q.val < 136 := by rw [src_tripleRB q]; exact (triple_cols ⟨285 + q.val, by omega⟩).2.2.2
    rw [show 421 + q.val = 136 + (285 + q.val) by omega, res3_triple, ← src_tripleLB q, ← src_tripleRB q]
    refine congrArg Prod.snd (congrArg₂ admMin (Prod.ext ?_ ?_) (Prod.ext ?_ ?_))
    · refine (ColsOf.concat_apply (R := 1024) (g := loAt x0 x1) (ps := tripleLB) ?hc ?h p q).trans ?_
      case h => simp only [List.map_cons, List.map_nil]; decide
      case hc => unfold tripleLB; cols_readback a3.view _ (loAt x0 x1) hLo
      unfold loAt; rw [res3_lt _ _ hl]
    · refine (ColsOf.concat_apply (R := 1024) (g := upAt x0 x1) (ps := tripleLB) ?hc ?h p q).trans ?_
      case h => simp only [List.map_cons, List.map_nil]; decide
      case hc => unfold tripleLB; cols_readback a4.view _ (upAt x0 x1) hUp
      unfold upAt; rw [res3_lt _ _ hl]
    · refine (ColsOf.concat_apply (R := 1024) (g := loAt x0 x1) (ps := tripleRB) ?hc ?h p q).trans ?_
      case h => simp only [List.map_cons, List.map_nil]; decide
      case hc => unfold tripleRB; cols_readback a3.view _ (loAt x0 x1) hLo
      unfold loAt; rw [res3_lt _ _ hr]
    · refine (ColsOf.concat_apply (R := 1024) (g := upAt x0 x1) (ps := tripleRB) ?hc ?h p q).trans ?_
      case h => simp only [List.map_cons, List.map_nil]; decide
      case hc => unfold tripleRB; cols_readback a4.view _ (upAt x0 x1) hUp
      unfold upAt; rw [res3_lt _ _ hr]
  · exact strips3_U c a1 h1 a2 h2 a3 a4 x0 x1 pc hpc x

/-- **The block of upper ends the body leaves is `blockUp` of its two input blocks.** -/
theorem out0_A_3_eq (c : Dev nD) (i : grid0.Coords) (a1 : Memref sig .tc .vmem S1024x16 .f32) (h1 : a1.IsWhole) (a2 : Memref sig .tc .vmem S1024x16 .f32) (h2 : a2.IsWhole) (a3 : Memref sig .tc .vmem S1024x696 .f32) (h3 : a3.IsWhole)
    (a4 : Memref sig .tc .vmem S1024x696 .f32) (h4 : a4.IsWhole) (x0 x1 : Vec F S1024x16 .f32) :
    out0_A_3 c i a1 h1 a2 h2 a3 h3 a4 h4 x0 x1 = blockUp x0 x1 := by
  unfold out0_A_3
  rw [View.read_writes_eq_canon _ _ _ (cover0_A_3 c i a1 h1 a2 h2 a3 h3 a4 h4 x0 x1)]
  funext y
  exact View.canon_apply_of_pieces (Val := Elt F) (S := S1024x696) (e := .f32) (blockUp x0 x1) _ (strips4_U c i a1 h1 a2 h2 a3 h3 a4 h4 x0 x1) y
    (cover0_A_3 c i a1 h1 a2 h2 a3 h3 a4 h4 x0 x1 y)

end Cert.KernelIdeal.BlockValue

end
-- ==== Proof.KernelBlock.lean ====
/-
  One block of the kernel's result: what the body leaves in its two output buffers is, for any float instance,
  `blockLo` and `blockUp` of the two input blocks (`out0_A_2_eq`, `out0_A_3_eq`).
-/
import proofs.«113700_j66640712564831_2_alg».proof.Proof.BlockTriplesLoB
import proofs.«113700_j66640712564831_2_alg».proof.Proof.BlockTriplesUpB
-- ==== Proof.KernelArray.lean ====
/-
  From blocks to the array, on the kernel's side.

  The kernel runs over 64 grid points.  Point `t` stages rows 1024·t … 1024·t + 1023 of the two argument arrays
  (sixteen columns each: the lower and the upper ends of sixteen intervals per row) and writes back the same rows of
  the two result arrays, all 696 columns.  Given that ONE block's two results are the fixed functions `blockLo` and
  `blockUp` of the block's two input blocks (the hypotheses `hLo`, `hUp` below), this module shows that after the run
  the two result arrays are `arrLo` and `arrUp` of the two argument arrays: row `R`, column `c` holds the lower,
  respectively upper, end of interval `c` of the 696 interval minima built from row `R` of the arguments.

  The steps:
  1. ROWS.  The block functions and the array functions are both "row by row": entry (r, c) depends on row r of the
     inputs only.  So if row r of an input block is row 1024·T + r of the argument array, entry (r, c) of the block
     function is entry (1024·T + r, c) of the array function (`block_eq_arr`).
  2. WHERE A BLOCK SITS.  On every axis a block's entry sits in its array at block index × block size + the coordinate
     inside the block.  At point `t` each of the four windows has block index (t, 0) (`index_facts`, checked point
     by point over the grid), so its entry (r, q) is the array's entry (1024·t + r, q) (`lowerBlock_apply`,
     `upperBlock_apply` for the inputs; the two side goals of `written_lo`, `written_up` for the outputs).
  3. WHAT A POINT WRITES BACK is therefore block `t` of the array function (`written_lo`, `written_up`).
  4. THE COVER.  Row R of a result array lies in the block of point R / 1024, and every column lies in every block
     (`cover_lo`, `cover_up`).  An array every entry of which some point's block covers, each point writing back
     its block of one function, ends holding that function (`final_lo`, `final_up`).
  5. THE RUN restated with the two arrays named (`run`).
-/
import proofs.«113700_j66640712564831_2_alg».proof.Proof.Gen.KernelIdeal.Value
import proofs.«113700_j66640712564831_2_alg».proof.Proof.BlockDefs
import Idealize.ShloMosaic.Lib.Pipeline.Value
import Idealize.ShloMosaic.Lib.ValueIdx

noncomputable section

namespace Cert.KernelIdeal.ArrayValue

open Cert.KernelIdeal Cert.KernelIdeal.Gen Cert.KernelIdeal.BlockValue Cert.IntervalMin Idealize.ShloMosaic
  Idealize.ShloMosaic.ValueIdx Idealize.ShloMosaic.TcCoe Idealize.SL.Sem
open Idealize.ShloMosaic.Pipeline (Dat)

variable {F : FTy → Type} [FloatOps F]

/-- All 696 interval minima of every row, lower ends: the whole result array as a function of the two argument
    arrays. -/
def arrLo (x y : FVec F S65536x16 .f32) : S65536x696.Idx → F .f32 :=
  fun j => (res3 (rowOf x (j 0)) (rowOf y (j 0)) (j 1).val).1

/-- The same, upper ends. -/
def arrUp (x y : FVec F S65536x16 .f32) : S65536x696.Idx → F .f32 :=
  fun j => (res3 (rowOf x (j 0)) (rowOf y (j 0)) (j 1).val).2

/-! ## 1. Rows -/

section Rows

/-- If a block `x0` of 1024 rows holds rows 1024·T … of the array `X`, then row r of the block, as a function of the
    column number, is row 1024·T + r of the array (the two read the same sixteen entries; a column number past 15
    reads column 15 on both sides). -/
theorem rowOf_block (X : FVec F S65536x16 .f32) (x0 : Vec F S1024x16 .f32) (T : Nat)
    (hx : ∀ (r : Fin 1024) (q : Fin 16) (R : Fin 65536), R.val = 1024 * T + r.val → x0 (ix2 r q) = X (ix2 R q))
    (r : Fin 1024) (R : Fin 65536) (hR : R.val = 1024 * T + r.val) : rowOf x0 r = rowOf X R :=
  funext fun n => hx r ⟨min n 15, by omega⟩ R hR

/-- THE BLOCK FUNCTIONS ARE THE ARRAY FUNCTIONS ON THE BLOCK'S ROWS: when the input blocks `x0`, `x1` hold rows
    1024·T … of the arrays `X`, `Y`, entry `j` of the block's result is entry `i` of the array's, for `i` the place of
    `j` in the array — row 1024·T + (row of j), the same column.  Both sides are the interval `res3` of the same row
    of inputs at the same column. -/
theorem block_eq_arr (X Y : FVec F S65536x16 .f32) (x0 x1 : Vec F S1024x16 .f32) (T : Nat)
    (hx0 : ∀ (r : Fin 1024) (q : Fin 16) (R : Fin 65536), R.val = 1024 * T + r.val → x0 (ix2 r q) = X (ix2 R q))
    (hx1 : ∀ (r : Fin 1024) (q : Fin 16) (R : Fin 65536), R.val = 1024 * T + r.val → x1 (ix2 r q) = Y (ix2 R q))
    (j : S1024x696.Idx) (i : S65536x696.Idx) (h0 : (i 0).val = 1024 * T + (j 0).val) (h1 : (i 1).val = (j 1).val) :
    blockLo x0 x1 j = arrLo X Y i ∧ blockUp x0 x1 j = arrUp X Y i := by
  unfold blockLo blockUp loAt upAt arrLo arrUp
  rw [rowOf_block X x0 T hx0 (j 0) (i 0) h0, rowOf_block Y x1 T hx1 (j 0) (i 0) h0, h1]
  exact ⟨rfl, rfl⟩

end Rows

/-! ## 2. Where a block sits in its array -/

section Blocks

variable (m : (ℓ : Loc nD τ sig) → Buf (Elt F) ℓ)

/-- At grid point `t` every window's block index is (t, 0): the blocks are consecutive bands of 1024 rows, each all
    the columns wide.  Checked point by point over the 64 points of the grid. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The block of lower ends staged at point `t` holds rows 1024·t … of the first argument: its entry (r, q) is the
    array's entry (t · 1024 + 1 · r, 0 · 16 + 1 · q). -/
theorem lowerBlock_apply (c : Dev nD) (t : Fin cfg0.N) (r : Fin 1024) (q : Fin 16) (R : Fin 65536)
    (hR : R.val = 1024 * t.val + r.val) :
    (iblk m c 0 t : Vec F S1024x16 .f32) (ix2 r q)
      = (m ((c : Thread nD τ).loc main_arg0) : S65536x16.Idx → Elt F .f32) (ix2 R q) := by
  obtain ⟨e0, e1, -⟩ := index_facts t
  unfold iblk
  rw [View.read_apply]
  show V m c main_arg0 _ = m (c.tc.loc main_arg0) _
  unfold V
  congr 1
  funext a
  apply Fin.ext
  match a with
  | ⟨0, _⟩ => show win0_0.index t 0 * 1024 + 1 * r.val = R.val; rw [e0, hR]; omega
  | ⟨1, _⟩ => show win0_0.index t 1 * 16 + 1 * q.val = q.val; rw [e1]; omega

/-- The block of upper ends staged at point `t` holds rows 1024·t … of the second argument. -/
theorem upperBlock_apply (c : Dev nD) (t : Fin cfg0.N) (r : Fin 1024) (q : Fin 16) (R : Fin 65536)
    (hR : R.val = 1024 * t.val + r.val) :
    (iblk m c 1 t : Vec F S1024x16 .f32) (ix2 r q)
      = (m ((c : Thread nD τ).loc main_arg1) : S65536x16.Idx → Elt F .f32) (ix2 R q) := by
  obtain ⟨-, -, e0, e1, -⟩ := index_facts t
  unfold iblk
  rw [View.read_apply]
  show V m c main_arg1 _ = m (c.tc.loc main_arg1) _
  unfold V
  congr 1
  funext a
  apply Fin.ext
  match a with
  | ⟨0, _⟩ => show win0_1.index t 0 * 1024 + 1 * r.val = R.val; rw [e0, hR]; omega
  | ⟨1, _⟩ => show win0_1.index t 1 * 16 + 1 * q.val = q.val; rw [e1]; omega

/-- So at point `t` the block functions of the two staged input blocks are the array functions of the two arguments,
    entry `j` of the block against its place `i` in the array. -/
theorem block_at (c : Dev nD) (t : Fin cfg0.N) (j : S1024x696.Idx) (i : S65536x696.Idx)
    (h0 : (i 0).val = 1024 * t.val + (j 0).val) (h1 : (i 1).val = (j 1).val) :
    blockLo (iblk m c 0 t) (iblk m c 1 t) j
        = arrLo (m ((c : Thread nD τ).loc main_arg0)) (m ((c : Thread nD τ).loc main_arg1)) i
    ∧ blockUp (iblk m c 0 t) (iblk m c 1 t) j
        = arrUp (m ((c : Thread nD τ).loc main_arg0)) (m ((c : Thread nD τ).loc main_arg1)) i :=
  block_eq_arr (m ((c : Thread nD τ).loc main_arg0)) (m ((c : Thread nD τ).loc main_arg1)) (iblk m c 0 t) (iblk m c 1 t) t.val
    (fun r q R hR => lowerBlock_apply m c t r q R hR) (fun r q R hR => upperBlock_apply m c t r q R hR) j i h0 h1

/-! ## 3. What a point writes back -/

/-- WHAT POINT `t` WRITES BACK to the array of lower ends is block `t` of `arrLo` of the two arguments: the body
    leaves `blockLo` of the two staged blocks (`hLo`), and entry `j` of the output block sits in the array at row
    t · 1024 + (row of j), column (column of j). -/
theorem written_lo (hLo : ∀ (c : Dev nD) (i : grid0.Coords) (a1 : Memref sig .tc .vmem S1024x16 .f32) (h1 : a1.IsWhole) (a2 : Memref sig .tc .vmem S1024x16 .f32) (h2 : a2.IsWhole) (a3 : Memref sig .tc .vmem S1024x696 .f32) (h3 : a3.IsWhole) (a4 : Memref sig .tc .vmem S1024x696 .f32) (h4 : a4.IsWhole) (x0 x1 : Vec F S1024x16 .f32),
        out0_A_2 c i a1 h1 a2 h2 a3 h3 a4 h4 x0 x1 = blockLo x0 x1)
    (c : Dev nD) (t : Fin cfg0.N) :
    (dats m 0 c).flushed 2 t = ((cfg0.win 2).blk t).view.read (Elt F)
      (arrLo (m ((c : Thread nD τ).loc main_arg0)) (m ((c : Thread nD τ).loc main_arg1))) := by
  rw [Value.flushed2_A, hLo]
  obtain ⟨-, -, -, -, e0, e1, -⟩ := index_facts t
  funext j
  show blockLo (iblk m c 0 t) (iblk m c 1 t) j
    = arrLo (m ((c : Thread nD τ).loc main_arg0)) (m ((c : Thread nD τ).loc main_arg1)) (((cfg0.win 2).blk t).view.emb j)
  refine (block_at m c t j _ ?_ ?_).1
  · show win0_2.index t 0 * 1024 + 1 * (j 0).val = 1024 * t.val + (j 0).val; rw [e0]; omega
  · show win0_2.index t 1 * 696 + 1 * (j 1).val = (j 1).val; rw [e1]; omega

/-- What point `t` writes back to the array of upper ends is block `t` of `arrUp` of the two arguments. -/
theorem written_up (hUp : ∀ (c : Dev nD) (i : grid0.Coords) (a1 : Memref sig .tc .vmem S1024x16 .f32) (h1 : a1.IsWhole) (a2 : Memref sig .tc .vmem S1024x16 .f32) (h2 : a2.IsWhole) (a3 : Memref sig .tc .vmem S1024x696 .f32) (h3 : a3.IsWhole) (a4 : Memref sig .tc .vmem S1024x696 .f32) (h4 : a4.IsWhole) (x0 x1 : Vec F S1024x16 .f32),
        out0_A_3 c i a1 h1 a2 h2 a3 h3 a4 h4 x0 x1 = blockUp x0 x1)
    (c : Dev nD) (t : Fin cfg0.N) :
    (dats m 0 c).flushed 3 t = ((cfg0.win 3).blk t).view.read (Elt F)
      (arrUp (m ((c : Thread nD τ).loc main_arg0)) (m ((c : Thread nD τ).loc main_arg1))) := by
  rw [Value.flushed3_A, hUp]
  obtain ⟨-, -, -, -, -, -, e0, e1⟩ := index_facts t
  funext j
  show blockUp (iblk m c 0 t) (iblk m c 1 t) j
    = arrUp (m ((c : Thread nD τ).loc main_arg0)) (m ((c : Thread nD τ).loc main_arg1)) (((cfg0.win 3).blk t).view.emb j)
  refine (block_at m c t j _ ?_ ?_).2
  · show win0_3.index t 0 * 1024 + 1 * (j 0).val = 1024 * t.val + (j 0).val; rw [e0]; omega
  · show win0_3.index t 1 * 696 + 1 * (j 1).val = (j 1).val; rw [e1]; omega

/-! ## 4. The blocks cover the arrays -/

/-- An index of the array of lower ends is in point `t`'s block iff each coordinate is in the block's range on its
    axis: from block index × block size, for the block's size. -/
theorem mem_block_lo (t : Fin cfg0.N) (i : S65536x696.Idx) :
    i ∈ ((cfg0.win 2).blk t).view.set ↔ ∀ a : Fin 2, win0_2.index t a * S1024x696.size a ≤ (i a).val
      ∧ (i a).val < win0_2.index t a * S1024x696.size a + S1024x696.size a := by
  show i ∈ ((View.whole main_v0_0).slice (win0_2.rect t)).set ↔ _
  rw [View.set_slice_whole, Rect.mem_set_unit]
  exact Iff.rfl

/-- The same for the array of upper ends. -/
theorem mem_block_up (t : Fin cfg0.N) (i : S65536x696.Idx) :
    i ∈ ((cfg0.win 3).blk t).view.set ↔ ∀ a : Fin 2, win0_3.index t a * S1024x696.size a ≤ (i a).val
      ∧ (i a).val < win0_3.index t a * S1024x696.size a + S1024x696.size a := by
  show i ∈ ((View.whole main_v0_1).slice (win0_3.rect t)).set ↔ _
  rw [View.set_slice_whole, Rect.mem_set_unit]
  exact Iff.rfl

/-- The point whose band of rows holds row R: R / 1024, one of the 64 points since R < 65536 = 64 · 1024. -/
theorem row_point (i : S65536x696.Idx) : (i 0).val / 1024 < cfg0.N := by
  have h : (i 0).val < 65536 := (i 0).isLt
  show (i 0).val / 1024 < grid0.N
  rw [N_0]; omega

/-- EVERY ENTRY OF THE ARRAY OF LOWER ENDS IS IN SOME POINT'S BLOCK: entry (R, c) in the block of point R / 1024,
    whose rows are (R / 1024) · 1024 ≤ R < (R / 1024) · 1024 + 1024 and whose columns are all 696. -/
theorem cover_lo (i : S65536x696.Idx) :
    ∃ t : Fin cfg0.N, (cfg0.win 2).flush t = true ∧ i ∈ ((cfg0.win 2).blk t).view.set := by
  refine ⟨⟨(i 0).val / 1024, row_point i⟩, flush0_2 _, ?_⟩
  obtain ⟨-, -, -, -, e0, e1, -⟩ := index_facts ⟨(i 0).val / 1024, row_point i⟩
  rw [mem_block_lo]
  intro a
  match a with
  | ⟨0, _⟩ =>
    show win0_2.index _ 0 * 1024 ≤ (i 0).val ∧ (i 0).val < win0_2.index _ 0 * 1024 + 1024
    rw [e0]; show (i 0).val / 1024 * 1024 ≤ (i 0).val ∧ (i 0).val < (i 0).val / 1024 * 1024 + 1024; omega
  | ⟨1, _⟩ =>
    have h : (i 1).val < 696 := (i 1).isLt
    show win0_2.index _ 1 * 696 ≤ (i 1).val ∧ (i 1).val < win0_2.index _ 1 * 696 + 696
    rw [e1]; omega

/-- Every entry of the array of upper ends is in some point's block. -/
theorem cover_up (i : S65536x696.Idx) :
    ∃ t : Fin cfg0.N, (cfg0.win 3).flush t = true ∧ i ∈ ((cfg0.win 3).blk t).view.set := by
  refine ⟨⟨(i 0).val / 1024, row_point i⟩, flush0_3 _, ?_⟩
  obtain ⟨-, -, -, -, -, -, e0, e1⟩ := index_facts ⟨(i 0).val / 1024, row_point i⟩
  rw [mem_block_up]
  intro a
  match a with
  | ⟨0, _⟩ =>
    show win0_3.index _ 0 * 1024 ≤ (i 0).val ∧ (i 0).val < win0_3.index _ 0 * 1024 + 1024
    rw [e0]; show (i 0).val / 1024 * 1024 ≤ (i 0).val ∧ (i 0).val < (i 0).val / 1024 * 1024 + 1024; omega
  | ⟨1, _⟩ =>
    have h : (i 1).val < 696 := (i 1).isLt
    show win0_3.index _ 1 * 696 ≤ (i 1).val ∧ (i 1).val < win0_3.index _ 1 * 696 + 696
    rw [e1]; omega

/-- THE ARRAY OF LOWER ENDS after the run: every point writes back its block of `arrLo` of the arguments and the
    blocks cover the array, so the array is `arrLo` of the arguments. -/
theorem final_lo (hLo : ∀ (c : Dev nD) (i : grid0.Coords) (a1 : Memref sig .tc .vmem S1024x16 .f32) (h1 : a1.IsWhole) (a2 : Memref sig .tc .vmem S1024x16 .f32) (h2 : a2.IsWhole) (a3 : Memref sig .tc .vmem S1024x696 .f32) (h3 : a3.IsWhole) (a4 : Memref sig .tc .vmem S1024x696 .f32) (h4 : a4.IsWhole) (x0 x1 : Vec F S1024x16 .f32),
        out0_A_2 c i a1 h1 a2 h2 a3 h3 a4 h4 x0 x1 = blockLo x0 x1)
    (c : Dev nD) :
    (dats m 0 c).arrAt 2 cfg0.N = arrLo (m ((c : Thread nD τ).loc main_arg0)) (m ((c : Thread nD τ).loc main_arg1)) :=
  (dats m 0 c).arrAt_eq_of_cover 2 (arrLo (m ((c : Thread nD τ).loc main_arg0)) (m ((c : Thread nD τ).loc main_arg1)))
    (fun t _ => written_lo m hLo c t) cover_lo

/-- The array of upper ends after the run is `arrUp` of the arguments. -/
theorem final_up (hUp : ∀ (c : Dev nD) (i : grid0.Coords) (a1 : Memref sig .tc .vmem S1024x16 .f32) (h1 : a1.IsWhole) (a2 : Memref sig .tc .vmem S1024x16 .f32) (h2 : a2.IsWhole) (a3 : Memref sig .tc .vmem S1024x696 .f32) (h3 : a3.IsWhole) (a4 : Memref sig .tc .vmem S1024x696 .f32) (h4 : a4.IsWhole) (x0 x1 : Vec F S1024x16 .f32),
        out0_A_3 c i a1 h1 a2 h2 a3 h3 a4 h4 x0 x1 = blockUp x0 x1)
    (c : Dev nD) :
    (dats m 0 c).arrAt 3 cfg0.N = arrUp (m ((c : Thread nD τ).loc main_arg0)) (m ((c : Thread nD τ).loc main_arg1)) :=
  (dats m 0 c).arrAt_eq_of_cover 3 (arrUp (m ((c : Thread nD τ).loc main_arg0)) (m ((c : Thread nD τ).loc main_arg1)))
    (fun t _ => written_up m hUp c t) cover_up

end Blocks

/-! ## 5. The run -/

/-- THE KERNEL'S RUN, READ: from any memory, every execution ends with the two result arrays at `arrLo` and `arrUp` of
    the two argument arrays as they were at the start, and the arguments unchanged. -/
theorem run
    (hLo : ∀ (c : Dev nD) (i : grid0.Coords) (a1 : Memref sig .tc .vmem S1024x16 .f32) (h1 : a1.IsWhole) (a2 : Memref sig .tc .vmem S1024x16 .f32) (h2 : a2.IsWhole) (a3 : Memref sig .tc .vmem S1024x696 .f32) (h3 : a3.IsWhole) (a4 : Memref sig .tc .vmem S1024x696 .f32) (h4 : a4.IsWhole) (x0 x1 : Vec F S1024x16 .f32),
        out0_A_2 c i a1 h1 a2 h2 a3 h3 a4 h4 x0 x1 = blockLo x0 x1)
    (hUp : ∀ (c : Dev nD) (i : grid0.Coords) (a1 : Memref sig .tc .vmem S1024x16 .f32) (h1 : a1.IsWhole) (a2 : Memref sig .tc .vmem S1024x16 .f32) (h2 : a2.IsWhole) (a3 : Memref sig .tc .vmem S1024x696 .f32) (h3 : a3.IsWhole) (a4 : Memref sig .tc .vmem S1024x696 .f32) (h4 : a4.IsWhole) (x0 x1 : Vec F S1024x16 .f32),
        out0_A_3 c i a1 h1 a2 h2 a3 h3 a4 h4 x0 x1 = blockUp x0 x1)
    (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v0_0) = arrLo (m ((c : Thread nD τ).loc main_arg0)) (m ((c : Thread nD τ).loc main_arg1))
      ∧ r.2.mem ((c : Thread nD τ).loc main_v0_1) = arrUp (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_lo m hLo c), (h c).2.1.trans (final_up m hUp c), (h c).2.2.1, (h c).2.2.2⟩)
    (Value.run_blocks m ρ)

end Cert.KernelIdeal.ArrayValue

end
-- ==== Proof.RefTerm.lean ====
/-
  The reference program's two results as pure terms of its two argument arrays.

  The reference keeps a growing array of interval ends.  From the sixteen input columns it takes, by a column gather
  at a literal table, the left and right operand columns of the 120 pairs, forms their minimum under the admissible
  order, and appends the 120 new columns; from those 136 columns it takes in the same way the operand columns of the
  560 triples and appends their minima.  The terms below spell exactly the host operations the program runs, in its
  order, so that its run ends at them by unfolding alone.
-/
import proofs.«113700_j66640712564831_2_alg».proof.Proof.Gen.ReferenceIdeal
import Idealize.ShloMosaic.PureOps

noncomputable section

namespace Cert.ReferenceIdeal.RefValue

open Cert.ReferenceIdeal Cert.ReferenceIdeal.Gen Idealize.ShloMosaic

variable {F : FTy → Type} [FloatOps F]

/-- The left-operand columns of the pairs, as the host constant. -/
def tabL2 : IVec S120 32 := fun i => lit0 (S120.rowMajor i)
/-- The right-operand columns of the pairs. -/
def tabR2 : IVec S120 32 := fun i => lit1 (S120.rowMajor i)
/-- The left-operand columns of the triples. -/
def tabL3 : IVec S560 32 := fun i => lit2 (S560.rowMajor i)
/-- The right-operand columns of the triples. -/
def tabR3 : IVec S560 32 := fun i => lit3 (S560.rowMajor i)

/-- A table of 120 column numbers made ready for the gather: a negative entry would have the extent 16 added (the
    mask is constantly false, so none is), and the table is re-laid [120] → [120, 1]. -/
def cols120 (tbl : IVec S120 32) : IVec S120x1 32 :=
  broadcastInDim S120x1 ![0] bcast_S120_S120x1_0
    (select (constantI S120 1 0#1) (addi tbl (broadcastInDim S120 ![] bcast_S_S120 (constantI S_ 32 16#32))) tbl)

/-- The same for a table of 560 column numbers into 136 columns. -/
def cols560 (tbl : IVec S560 32) : IVec S560x1 32 :=
  broadcastInDim S560x1 ![0] bcast_S560_S560x1_0
    (select (constantI S560 1 0#1) (addi tbl (broadcastInDim S560 ![] bcast_S_S560 (constantI S_ 32 136#32))) tbl)

/-- The 120 columns of a 16-column array that a table names. -/
def take120 (x : FVec F S65536x16 .f32) (tbl : IVec S120 32) : FVec F S65536x120 .f32 :=
  Host.gather gather_S65536x16_S120x1_S65536x120_0_1_n_n_1_1_655361 x (cols120 tbl)

/-- The 560 columns of a 136-column array that a table names. -/
def take560 (x : FVec F S65536x136 .f32) (tbl : IVec S560 32) : FVec F S65536x560 .f32 :=
  Host.gather gather_S65536x136_S560x1_S65536x560_0_1_n_n_1_1_655361 x (cols560 tbl)

/-- K_α on arrays: l + 0.4·(u − l), the constant a broadcast scalar. -/
def kAlphaV {S : Shape} (bc : S_.BroadcastsInDim S (![] : Fin 0 → Fin S.rank)) (l u : FVec F S .f32) : FVec F S .f32 :=
  addf l (mulf (broadcastInDim S ![] bc (constant S_ .f32 0x3ECCCCCD#32)) (subf u l))

/-- K_β on arrays: l + 0.6·(u − l). -/
def kBetaV {S : Shape} (bc : S_.BroadcastsInDim S (![] : Fin 0 → Fin S.rank)) (l u : FVec F S .f32) : FVec F S .f32 :=
  addf l (mulf (broadcastInDim S ![] bc (constant S_ .f32 0x3F19999A#32)) (subf u l))

/-- Where the right interval is the smaller one. -/
def takeRightV {S : Shape} (bc : S_.BroadcastsInDim S (![] : Fin 0 → Fin S.rank)) (ll lu rl ru : FVec F S .f32) : IVec S 1 :=
  ori (cmpf .olt (kAlphaV bc rl ru) (kAlphaV bc ll lu))
    (andi (cmpf .oeq (kAlphaV bc rl ru) (kAlphaV bc ll lu)) (cmpf .ole (kBetaV bc rl ru) (kBetaV bc ll lu)))

/-- The mask of the pairs: left operands at `tabL2`, right operands at `tabR2`. -/
def mask2 (x y : FVec F S65536x16 .f32) : IVec S65536x120 1 :=
  takeRightV bcast_S_S65536x120 (take120 x tabL2) (take120 y tabL2) (take120 x tabR2) (take120 y tabR2)

/-- Lower ends after the pairs: the sixteen input columns, then the 120 minima. -/
def lvl2L (x y : FVec F S65536x16 .f32) : FVec F S65536x136 .f32 :=
  concatenate S65536x136 1 [⟨S65536x16, x⟩, ⟨S65536x120, select (mask2 x y) (take120 x tabR2) (take120 x tabL2)⟩]
    concatenates_S65536x16_S65536x120_S65536x136_d1

/-- Upper ends after the pairs. -/
def lvl2U (x y : FVec F S65536x16 .f32) : FVec F S65536x136 .f32 :=
  concatenate S65536x136 1 [⟨S65536x16, y⟩, ⟨S65536x120, select (mask2 x y) (take120 y tabR2) (take120 y tabL2)⟩]
    concatenates_S65536x16_S65536x120_S65536x136_d1

/-- The mask of the triples over the 136 columns `X` (lower ends) and `Y` (upper ends). -/
def mask3 (X Y : FVec F S65536x136 .f32) : IVec S65536x560 1 :=
  takeRightV bcast_S_S65536x560 (take560 X tabL3) (take560 Y tabL3) (take560 X tabR3) (take560 Y tabR3)

/-- The reference's first result: all 696 columns of lower ends. -/
def lvl3L (x y : FVec F S65536x16 .f32) : FVec F S65536x696 .f32 :=
  concatenate S65536x696 1 [⟨S65536x136, lvl2L x y⟩,
      ⟨S65536x560, select (mask3 (lvl2L x y) (lvl2U x y)) (take560 (lvl2L x y) tabR3) (take560 (lvl2L x y) tabL3)⟩]
    concatenates_S65536x136_S65536x560_S65536x696_d1

/-- The reference's second result: all 696 columns of upper ends. -/
def lvl3U (x y : FVec F S65536x16 .f32) : FVec F S65536x696 .f32 :=
  concatenate S65536x696 1 [⟨S65536x136, lvl2U x y⟩,
      ⟨S65536x560, select (mask3 (lvl2L x y) (lvl2U x y)) (take560 (lvl2U x y) tabR3) (take560 (lvl2U x y) tabL3)⟩]
    concatenates_S65536x136_S65536x560_S65536x696_d1

end Cert.ReferenceIdeal.RefValue

end
-- ==== Proof.RefRun.lean ====
/-
  The reference program's run, read back.

  The reference keeps a growing array of interval ends, lower ends in one array and upper ends in another.  It runs
  in three stages.  First the column tables: four literal tables of column numbers (the left and the right operand of
  each of the 120 pairs and of each of the 560 triples), each beside two masks that would mark a negative entry and
  are constantly false.  Then the pairs: from the sixteen input columns it takes, by a column gather at a table, the
  lower and the upper ends of each pair's left and right operand; it forms K_α = l + 0.4·(u − l) and
  K_β = l + 0.6·(u − l) of both operands, takes the right operand where its K_α is less, or equal with its K_β at
  most the left one's, and the left operand elsewhere; the 120 minima are appended to the sixteen columns.  Then the
  triples: the same over the 136 columns and the two tables of 560 entries, whose minima are appended in turn, for
  696 columns in each array.

  The program is a straight line: 118 host operations, none reading a buffer before the line that writes it, each
  writing a buffer of its own.  So every weakly fair execution terminates, and each buffer ends at the composition of
  the operations on the path to it, applied to the two argument arrays, which no operation writes.  For the two
  result buffers that composition is the pair of terms `lvl3L` and `lvl3U`, which spell these operations in this
  order.
-/
import proofs.«113700_j66640712564831_2_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's 118 operations, in its order.  The two outlined functions are one select each, listed where they
    are called, over the call's own result buffer. -/
abbrev ops : List (HloOp τ sig (Elt F)) :=
  [
    -- the four tables of column numbers, each with its two constantly-false "negative entry" masks
    nullary main_c (fun i => lit0 (S120.rowMajor i)),
    nullary main_c_0 (constantI S120 1 0#1),
    nullary main_c_1 (constantI S120 1 0#1),
    nullary main_c_2 (fun i => lit1 (S120.rowMajor i)),
    nullary main_c_3 (constantI S120 1 0#1),
    nullary main_c_4 (constantI S120 1 0#1),
    nullary main_c_5 (fun i => lit2 (S560.rowMajor i)),
    nullary main_c_6 (constantI S560 1 0#1),
    nullary main_c_7 (constantI S560 1 0#1),
    nullary main_c_8 (fun i => lit3 (S560.rowMajor i)),
    nullary main_c_9 (constantI S560 1 0#1),
    nullary main_c_10 (constantI S560 1 0#1),
    -- pairs: the lower ends at the left operands' columns (the table made ready, then the column gather)
    nullary main_c_11 (constantI S_ 32 16#32),
    unary main_c_11 main_v0 (broadcastInDim S120 ![] bcast_S_S120),
    binary main_c main_v0 main_v1 addi,
    ternary main_c_0 main_v1 main_c main_v2 select,
    unary main_v2 main_v3 (broadcastInDim S120x1 ![0] bcast_S120_S120x1_0),
    binary main_arg0 main_v3 main_v4 (fun x i => Host.gather gather_S65536x16_S120x1_S65536x120_0_1_n_n_1_1_655361 x i),
    -- pairs: the upper ends at the left operands' columns
    nullary main_c_12 (constantI S_ 32 16#32),
    unary main_c_12 main_v5 (broadcastInDim S120 ![] bcast_S_S120),
    binary main_c main_v5 main_v6 addi,
    ternary main_c_1 main_v6 main_c main_v7 select,
    unary main_v7 main_v8 (broadcastInDim S120x1 ![0] bcast_S120_S120x1_0),
    binary main_arg1 main_v8 main_v9 (fun x i => Host.gather gather_S65536x16_S120x1_S65536x120_0_1_n_n_1_1_655361 x i),
    -- pairs: the lower ends at the right operands' columns
    nullary main_c_13 (constantI S_ 32 16#32),
    unary main_c_13 main_v10 (broadcastInDim S120 ![] bcast_S_S120),
    binary main_c_2 main_v10 main_v11 addi,
    ternary main_c_3 main_v11 main_c_2 main_v12 select,
    unary main_v12 main_v13 (broadcastInDim S120x1 ![0] bcast_S120_S120x1_0),
    binary main_arg0 main_v13 main_v14 (fun x i => Host.gather gather_S65536x16_S120x1_S65536x120_0_1_n_n_1_1_655361 x i),
    -- pairs: the upper ends at the right operands' columns
    nullary main_c_14 (constantI S_ 32 16#32),
    unary main_c_14 main_v15 (broadcastInDim S120 ![] bcast_S_S120),
    binary main_c_2 main_v15 main_v16 addi,
    ternary main_c_4 main_v16 main_c_2 main_v17 select,
    unary main_v17 main_v18 (broadcastInDim S120x1 ![0] bcast_S120_S120x1_0),
    binary main_arg1 main_v18 main_v19 (fun x i => Host.gather gather_S65536x16_S120x1_S65536x120_0_1_n_n_1_1_655361 x i),
    -- pairs: K_α of the left interval, l + 0.4·(u − l)
    binary main_v9 main_v4 main_v20 subf,
    nullary main_cst (constant S_ .f32 0x3ECCCCCD#32),
    unary main_cst main_v21 (broadcastInDim S65536x120 ![] bcast_S_S65536x120),
    binary main_v21 main_v20 main_v22 mulf,
    binary main_v4 main_v22 main_v23 addf,
    -- pairs: K_α of the right interval
    binary main_v19 main_v14 main_v24 subf,
    nullary main_cst_15 (constant S_ .f32 0x3ECCCCCD#32),
    unary main_cst_15 main_v25 (broadcastInDim S65536x120 ![] bcast_S_S65536x120),
    binary main_v25 main_v24 main_v26 mulf,
    binary main_v14 main_v26 main_v27 addf,
    -- pairs: K_β of the left interval, l + 0.6·(u − l)
    binary main_v9 main_v4 main_v28 subf,
    nullary main_cst_16 (constant S_ .f32 0x3F19999A#32),
    unary main_cst_16 main_v29 (broadcastInDim S65536x120 ![] bcast_S_S65536x120),
    binary main_v29 main_v28 main_v30 mulf,
    binary main_v4 main_v30 main_v31 addf,
    -- pairs: K_β of the right interval
    binary main_v19 main_v14 main_v32 subf,
    nullary main_cst_17 (constant S_ .f32 0x3F19999A#32),
    unary main_cst_17 main_v33 (broadcastInDim S65536x120 ![] bcast_S_S65536x120),
    binary main_v33 main_v32 main_v34 mulf,
    binary main_v14 main_v34 main_v35 addf,
    -- pairs: the right interval is the smaller one — K_α less, or K_α equal and K_β at most
    binary main_v27 main_v23 main_v36 (cmpf .olt),
    binary main_v27 main_v23 main_v37 (cmpf .oeq),
    binary main_v35 main_v31 main_v38 (cmpf .ole),
    binary main_v37 main_v38 main_v39 andi,
    binary main_v36 main_v39 main_v40 ori,
    -- pairs: the minimum's two ends (each call of the outlined function is its one select)
    ternary main_v40 main_v14 main_v4 main_v41 select,
    ternary main_v40 main_v19 main_v9 main_v42 select,
    -- the 136 columns: the sixteen given, then the 120 minima
    binary main_arg0 main_v41 main_v43 (fun a b => concatenate S65536x136 1 [⟨S65536x16, a⟩, ⟨S65536x120, b⟩] concatenates_S65536x16_S65536x120_S65536x136_d1),
    binary main_arg1 main_v42 main_v44 (fun a b => concatenate S65536x136 1 [⟨S65536x16, a⟩, ⟨S65536x120, b⟩] concatenates_S65536x16_S65536x120_S65536x136_d1),
    -- triples: the lower ends at the left operands' columns, out of the 136
    nullary main_c_18 (constantI S_ 32 136#32),
    unary main_c_18 main_v45 (broadcastInDim S560 ![] bcast_S_S560),
    binary main_c_5 main_v45 main_v46 addi,
    ternary main_c_6 main_v46 main_c_5 main_v47 select,
    unary main_v47 main_v48 (broadcastInDim S560x1 ![0] bcast_S560_S560x1_0),
    binary main_v43 main_v48 main_v49 (fun x i => Host.gather gather_S65536x136_S560x1_S65536x560_0_1_n_n_1_1_655361 x i),
    -- triples: the upper ends at the left operands' columns
    nullary main_c_19 (constantI S_ 32 136#32),
    unary main_c_19 main_v50 (broadcastInDim S560 ![] bcast_S_S560),
    binary main_c_5 main_v50 main_v51 addi,
    ternary main_c_7 main_v51 main_c_5 main_v52 select,
    unary main_v52 main_v53 (broadcastInDim S560x1 ![0] bcast_S560_S560x1_0),
    binary main_v44 main_v53 main_v54 (fun x i => Host.gather gather_S65536x136_S560x1_S65536x560_0_1_n_n_1_1_655361 x i),
    -- triples: the lower ends at the right operands' columns
    nullary main_c_20 (constantI S_ 32 136#32),
    unary main_c_20 main_v55 (broadcastInDim S560 ![] bcast_S_S560),
    binary main_c_8 main_v55 main_v56 addi,
    ternary main_c_9 main_v56 main_c_8 main_v57 select,
    unary main_v57 main_v58 (broadcastInDim S560x1 ![0] bcast_S560_S560x1_0),
    binary main_v43 main_v58 main_v59 (fun x i => Host.gather gather_S65536x136_S560x1_S65536x560_0_1_n_n_1_1_655361 x i),
    -- triples: the upper ends at the right operands' columns
    nullary main_c_21 (constantI S_ 32 136#32),
    unary main_c_21 main_v60 (broadcastInDim S560 ![] bcast_S_S560),
    binary main_c_8 main_v60 main_v61 addi,
    ternary main_c_10 main_v61 main_c_8 main_v62 select,
    unary main_v62 main_v63 (broadcastInDim S560x1 ![0] bcast_S560_S560x1_0),
    binary main_v44 main_v63 main_v64 (fun x i => Host.gather gather_S65536x136_S560x1_S65536x560_0_1_n_n_1_1_655361 x i),
    -- triples: K_α of the left interval
    binary main_v54 main_v49 main_v65 subf,
    nullary main_cst_22 (constant S_ .f32 0x3ECCCCCD#32),
    unary main_cst_22 main_v66 (broadcastInDim S65536x560 ![] bcast_S_S65536x560),
    binary main_v66 main_v65 main_v67 mulf,
    binary main_v49 main_v67 main_v68 addf,
    -- triples: K_α of the right interval
    binary main_v64 main_v59 main_v69 subf,
    nullary main_cst_23 (constant S_ .f32 0x3ECCCCCD#32),
    unary main_cst_23 main_v70 (broadcastInDim S65536x560 ![] bcast_S_S65536x560),
    binary main_v70 main_v69 main_v71 mulf,
    binary main_v59 main_v71 main_v72 addf,
    -- triples: K_β of the left interval
    binary main_v54 main_v49 main_v73 subf,
    nullary main_cst_24 (constant S_ .f32 0x3F19999A#32),
    unary main_cst_24 main_v74 (broadcastInDim S65536x560 ![] bcast_S_S65536x560),
    binary main_v74 main_v73 main_v75 mulf,
    binary main_v49 main_v75 main_v76 addf,
    -- triples: K_β of the right interval
    binary main_v64 main_v59 main_v77 subf,
    nullary main_cst_25 (constant S_ .f32 0x3F19999A#32),
    unary main_cst_25 main_v78 (broadcastInDim S65536x560 ![] bcast_S_S65536x560),
    binary main_v78 main_v77 main_v79 mulf,
    binary main_v59 main_v79 main_v80 addf,
    -- triples: the right interval is the smaller one
    binary main_v72 main_v68 main_v81 (cmpf .olt),
    binary main_v72 main_v68 main_v82 (cmpf .oeq),
    binary main_v80 main_v76 main_v83 (cmpf .ole),
    binary main_v82 main_v83 main_v84 andi,
    binary main_v81 main_v84 main_v85 ori,
    -- triples: the minimum's two ends
    ternary main_v85 main_v59 main_v49 main_v86 select,
    ternary main_v85 main_v64 main_v54 main_v87 select,
    -- the 696 columns: the 136, then the 560 minima
    binary main_v43 main_v86 main_v88 (fun a b => concatenate S65536x696 1 [⟨S65536x136, a⟩, ⟨S65536x560, b⟩] concatenates_S65536x136_S65536x560_S65536x696_d1),
    binary main_v44 main_v87 main_v89 (fun a b => concatenate S65536x696 1 [⟨S65536x136, a⟩, ⟨S65536x560, b⟩] concatenates_S65536x136_S65536x560_S65536x696_d1) ]

-- 118 binds re-associated, one level of recursion each
set_option maxRecDepth 4096 in
set_option maxHeartbeats 4000000 in
/-- The program is that straight line: its two windows one after the other, each outlined function's body — one
    select from the call's operands into the call's result buffer — in place of its call. -/
theorem main_eq (c : Dev nD) : main (F := F) c = seq ops := by
  simp only [main, main_part0, main_part1, fn_where.body, fn_where_0.body, seq, bind_assoc, pure_bind]
  rfl

/-- No buffer and no semaphore of the program is scoped: every buffer is a tensor value's. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the TensorCore only. -/
theorem ops_sub : (ops : List (HloOp τ sig (Elt F))).Forall fun op => op.bufs ⊆ tcRefs τ sig :=
  ⟨
    nullary_bufs_sub .., nullary_bufs_sub .., nullary_bufs_sub .., nullary_bufs_sub .., nullary_bufs_sub .., nullary_bufs_sub ..,
    nullary_bufs_sub .., nullary_bufs_sub .., nullary_bufs_sub .., nullary_bufs_sub .., nullary_bufs_sub .., nullary_bufs_sub ..,
    nullary_bufs_sub .., unary_bufs_sub .., binary_bufs_sub .., ternary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub .., binary_bufs_sub .., binary_bufs_sub ..,
    nullary_bufs_sub .., unary_bufs_sub .., binary_bufs_sub .., binary_bufs_sub .., binary_bufs_sub .., nullary_bufs_sub ..,
    unary_bufs_sub .., binary_bufs_sub .., binary_bufs_sub .., binary_bufs_sub .., nullary_bufs_sub .., unary_bufs_sub ..,
    binary_bufs_sub .., binary_bufs_sub .., binary_bufs_sub .., binary_bufs_sub .., binary_bufs_sub .., binary_bufs_sub ..,
    binary_bufs_sub .., ternary_bufs_sub .., ternary_bufs_sub .., binary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., binary_bufs_sub .., binary_bufs_sub .., nullary_bufs_sub ..,
    unary_bufs_sub .., binary_bufs_sub .., binary_bufs_sub .., binary_bufs_sub .., nullary_bufs_sub .., unary_bufs_sub ..,
    binary_bufs_sub .., binary_bufs_sub .., binary_bufs_sub .., nullary_bufs_sub .., unary_bufs_sub .., binary_bufs_sub ..,
    binary_bufs_sub .., binary_bufs_sub .., binary_bufs_sub .., binary_bufs_sub .., binary_bufs_sub .., binary_bufs_sub ..,
    ternary_bufs_sub .., ternary_bufs_sub .., binary_bufs_sub .., binary_bufs_sub ..⟩

/-- A concatenation of two pieces is a function of the pieces: equal pieces, equal concatenations.  (The evidence that
    the pieces' shapes add up to the result's speaks of the shapes only, so it serves both sides.) -/
theorem concatenate_pair_congr {α : Type} {t : Shape} {d : Fin t.rank} {s₁ s₂ : Shape} {a a' : s₁.Idx → α} {b b' : s₂.Idx → α}
    {h : Shape.Concatenates [s₁, s₂] t d} (ha : a = a') (hb : b = b') :
    concatenate t d [⟨s₁, a⟩, ⟨s₂, b⟩] h = concatenate t d [⟨s₁, a'⟩, ⟨s₂, b'⟩] h := by
  subst ha hb; rfl

attribute [local congr] concatenate_pair_congr

-- the fold is 118 operations deep, and a result is read through all of them
set_option maxRecDepth 8192 in
set_option maxHeartbeats 8000000 in
/-- What the two result buffers hold after the line.  Read backwards from a result, each operation either writes the
    buffer asked for — then the buffer holds the operation's function of its operands' buffers, asked for in turn —
    or writes another and leaves it as it was; the walk ends at the two argument buffers, which no operation writes.
    The term so composed is `lvl3L` (`lvl3U`) once those definitions are unfolded: they spell the same operations. -/
theorem results_eq (V : Valuation τ sig (Elt F)) :
    after ops V (main_v88 : DevRef τ sig) = lvl3L (V (main_arg0 : DevRef τ sig)) (V (main_arg1 : DevRef τ sig))
    ∧ after ops V (main_v89 : DevRef τ sig) = lvl3U (V (main_arg0 : DevRef τ sig)) (V (main_arg1 : DevRef τ sig)) := by
  after_results_simp
  exact ⟨rfl, rfl⟩

set_option maxRecDepth 8192 in
set_option maxHeartbeats 1000000 in
/-- No operation writes the first argument. -/
theorem arg0_eq (V : Valuation τ sig (Elt F)) :
    after ops V (main_arg0 : DevRef τ sig) = V (main_arg0 : DevRef τ sig) := by
  after_results_simp

set_option maxRecDepth 8192 in
set_option maxHeartbeats 1000000 in
/-- No operation writes the second argument. -/
theorem arg1_eq (V : Valuation τ sig (Elt F)) :
    after ops V (main_arg1 : DevRef τ sig) = V (main_arg1 : DevRef τ sig) := by
  after_results_simp

/-- On every device, for any float values, from any memory with zero counters: every weakly fair execution of the
    program terminates with its two results at `lvl3L` and `lvl3U` of the two arguments, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v88) = lvl3L (m ((c.tc : Thread nD τ).loc main_arg0)) (m ((c.tc : Thread nD τ).loc main_arg1))
      ∧ r.2.mem ((c.tc : Thread nD τ).loc main_v89) = lvl3U (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v88).trans (results_eq _).1, (h c main_v89).trans (results_eq _).2,
      (h c main_arg0).trans (arg0_eq _), (h c main_arg1).trans (arg1_eq _)⟩)
    (run_seq scopedRefs_eq scopedSems_eq defs main (fun _ => ops) main_eq (fun _ => ops_sub) m ρ)

end Cert.ReferenceIdeal.RefValue

end
-- ==== Proof.RefRead.lean ====
/-
  The reference's two results read at an index.

  The reference's results are two arrays of 65536 rows and 696 columns: `lvl3L` holds the lower ends and `lvl3U` the
  upper ends of 696 intervals per row.  This module shows that row `p`, column `c` of the two arrays together is the
  interval `res3 (row p of x) (row p of y) c` of the row-by-row description: the input interval itself for c < 16; for
  16 ≤ c < 136 (the pairs) the minimum, under the admissible order, of two of the sixteen input intervals; for
  136 ≤ c < 696 (the triples) the minimum of two of those 136 intervals.

  The argument takes the reference's operations one kind at a time.

  1. A COLUMN GATHER.  With offset axis 0, collapsed axis 1, start-index map [1], index-vector axis 1 and slice sizes
     [R, 1], the gather of an [R, W] operand at a [Q, 1] array of start indices is the [R, Q] array whose entry (p, q)
     is the operand's entry in row p and column min(s, W − 1), where s is the start index at (q, 0) read as a signed
     integer (a negative one counts as 0).  The row coordinate of the result is an offset coordinate: it is copied,
     and the slice starts at row 0 because axis 0 is not in the start-index map.  The column axis of the operand is
     collapsed: its coordinate is the clamped start alone.  So column q of the result is the operand's column that
     the q-th start index names.
  2. THE START INDICES.  The reference makes a table `tbl` of column numbers ready by adding the extent where an entry
     is negative (under a mask that is constantly false, so nowhere) and re-laying it [Q] → [Q, 1]; at (q, 0) the
     result is `tbl q`.
  3. THE TABLES.  Every entry of the two pair tables is below 16 and every entry of the two triple tables is below 136
     (checked entry by entry over the finite index range).  So a start index is a nonnegative number below the
     operand's width, the clamp does nothing, and the gather reads exactly column `tbl q`.
  4. THE ELEMENTWISE OPERATIONS read through pointwise: the mask at an index is `takeRight` of the four gathered
     entries at that index, and a select at an index selects between the entries.
  5. A CONCATENATION ALONG AXIS 1 of two pieces: a column below the first piece's width reads the first piece at the
     same place; a later column reads the second piece, the first piece's width less.

  Items 1–5 give the pairs' level (`lvl2_apply`) and, on top of it, the triples' level (`lvl3_apply`), each as an
  equation between intervals (pairs of a lower and an upper end); the four statements at the end are their components.
-/
import proofs.«113700_j66640712564831_2_alg».proof.Proof.RefTerm
import proofs.«113700_j66640712564831_2_alg».proof.Proof.Spec
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx Cert.IntervalMin

variable {F : FTy → Type} [FloatOps F]

/-! ## 1. A column gather read at an index -/

section ColumnGather
variable {α : Type}

/-- The dimension numbers of a column gather, for an operand [R, W], start indices [Q, 1] and a result [R, Q]: the
    result's axis 0 is the offset axis (whole columns of R rows are taken), the operand's axis 1 is collapsed (each
    slice is one column wide) and is the axis a start index addresses.  Both of the reference's gathers are this record
    (at W = 16, Q = 120 and at W = 136, Q = 560), its conditions `wf` being the shape fact the program states. -/
abbrev colDims (R W Q : Nat)
    (wf : GatherDims.WF ⟨2, ![R, W]⟩ ⟨2, ![Q, 1]⟩ ⟨2, ![R, Q]⟩ [0] [1] [] [1] [] 1 ![R, 1]) :
    GatherDims ⟨2, ![R, W]⟩ ⟨2, ![Q, 1]⟩ ⟨2, ![R, Q]⟩ where
  offsetDims := [0]
  collapsedSliceDims := [1]
  operandBatchingDims := []
  startIndicesBatchingDims := []
  startIndexMap := [1]
  indexVectorDim := 1
  sliceSizes := ![R, 1]
  wf := wf

/-- THE COLUMN GATHER AT (p, q): the operand in row p, at the column the start index at (q, 0) names, that index read
    signed and clamped into [0, W − 1].

    The operand index of a gather is, axis by axis, start + batching coordinate + offset coordinate.  There is no
    batching axis.  On axis 0 (the rows) the start is 0, since axis 0 is not in the start-index map, and the offset
    coordinate is the result's coordinate on its one offset axis, p.  On axis 1 (the columns) the offset coordinate
    is 0, since the axis is collapsed, and the start is the start index's one component, clamped to the operand's
    width less the slice's, W − 1; the component for result index (p, q) sits at (q, 0) of the start indices, q being
    the result's one batch coordinate and 0 the place on the index-vector axis. -/
theorem gather_col_apply {R W Q w : Nat} (hW : 0 < W)
    (wf : GatherDims.WF ⟨2, ![R, W]⟩ ⟨2, ![Q, 1]⟩ ⟨2, ![R, Q]⟩ [0] [1] [] [1] [] 1 ![R, 1])
    (x : (⟨2, ![R, W]⟩ : Shape).Idx → α) (idx : IVec ⟨2, ![Q, 1]⟩ w) (p : Fin R) (q : Fin Q) :
    Host.gather (colDims R W Q wf) x idx (ix2 p q)
      = x (ix2 p ⟨min (idx (ix2 q ⟨0, Nat.one_pos⟩)).toInt.toNat (W - 1), by omega⟩) := by
  unfold Host.gather
  congr 1
  funext a
  refine Fin.ext ?_
  show (colDims R W Q wf).start (ix2 p q) idx a + (colDims R W Q wf).batchCoord (ix2 p q) a
      + (colDims R W Q wf).offCoord (ix2 p q) a = _
  -- no axis is a batching axis
  rw [GatherDims.batchCoord_eq_zero _ _ _ List.not_mem_nil, Nat.add_zero]
  match a with
  | ⟨0, _⟩ =>
    -- the rows: start 0 (axis 0 is not addressed by a start index), offset coordinate p
    have hs : (colDims R W Q wf).start (ix2 p q) idx ⟨0, by omega⟩ = 0 := by
      unfold GatherDims.start
      rw [dif_neg (fun h => Nat.zero_ne_one (congrArg Fin.val (List.mem_singleton.mp h)))]
    have ho : (colDims R W Q wf).offCoord (ix2 p q) ⟨0, by omega⟩ = p.val := by
      unfold GatherDims.offCoord
      rw [dif_pos ((GatherDims.mem_sKept _ _).mpr
        ⟨fun h => Nat.zero_ne_one (congrArg Fin.val (List.mem_singleton.mp h)), List.not_mem_nil⟩)]
      rfl
    rw [hs, ho, Nat.zero_add]
  | ⟨1, _⟩ =>
    -- the columns: offset coordinate 0 (the axis is collapsed), start the clamped start index
    rw [GatherDims.offCoord_eq_zero _ _ _
      (fun h => ((GatherDims.mem_sKept _ _).mp h).1 (List.mem_singleton.mpr rfl)), Nat.add_zero]
    unfold GatherDims.start
    rw [dif_pos (show (⟨1, by omega⟩ : Fin 2) ∈ (colDims R W Q wf).startIndexMap from List.mem_singleton.mpr rfl)]
    -- where the start index of result index (p, q) sits among the start indices: at (q, 0)
    have hsi : (colDims R W Q wf).siIdx (ix2 p q) ⟨List.idxOf (⟨1, by omega⟩ : Fin 2) (colDims R W Q wf).startIndexMap,
        List.idxOf_lt_length_iff.2 (List.mem_singleton.mpr rfl)⟩ = ix2 q ⟨0, Nat.one_pos⟩ := by
      funext b; refine Fin.ext ?_
      match b with
      | ⟨0, _⟩ => rfl
      | ⟨1, _⟩ => rfl
    rw [hsi]
    rfl

/-- The same when the start index at (q, 0) is the 32-bit word of a number `n` below the width (and the width is
    at most 2³¹, so that the word read signed is `n`): the clamp does nothing and the gather reads column `n`. -/
theorem gather_col_apply_of_lt {R W Q : Nat} (hW : W ≤ 2 ^ 31)
    (wf : GatherDims.WF ⟨2, ![R, W]⟩ ⟨2, ![Q, 1]⟩ ⟨2, ![R, Q]⟩ [0] [1] [] [1] [] 1 ![R, 1])
    (x : (⟨2, ![R, W]⟩ : Shape).Idx → α) (idx : IVec ⟨2, ![Q, 1]⟩ 32) (p : Fin R) (q : Fin Q)
    (n : Nat) (hn : n < W) (hidx : (idx (ix2 q ⟨0, Nat.one_pos⟩)).toNat = n) :
    Host.gather (colDims R W Q wf) x idx (ix2 p q) = x (ix2 p ⟨n, hn⟩) := by
  refine (gather_col_apply (by omega) wf x idx p q).trans ?_
  refine congrArg x (congrArg (ix2 p) (Fin.ext ?_))
  show min (idx (ix2 q ⟨0, Nat.one_pos⟩)).toInt.toNat (W - 1) = n
  -- a word below 2³¹ read signed is the word read unsigned
  rw [BitVec.toInt_eq_toNat_of_lt (by omega), Int.toNat_natCast, hidx]
  omega

end ColumnGather

/-! ## 2. The start indices the reference prepares -/

/-- A table of 120 column numbers made ready for the gather reads, at (q, 0), the table's entry q: the re-laying
    [120] → [120, 1] reads entry q at (q, 0), and under the constantly false mask the select keeps the entry
    as it is (the extent is added nowhere). -/
theorem cols120_apply (tbl : IVec S120 32) (q : Fin 120) :
    cols120 tbl (ix2 q ⟨0, Nat.one_pos⟩) = tbl (ix1 q) := by
  unfold cols120
  refine (broadcastInDim_apply _ _ _ _ (ix1 q) (fun a => match a with | ⟨0, _⟩ => rfl)).trans ?_
  exact select_zero _ _

/-- The same for a table of 560 column numbers. -/
theorem cols560_apply (tbl : IVec S560 32) (q : Fin 560) :
    cols560 tbl (ix2 q ⟨0, Nat.one_pos⟩) = tbl (ix1 q) := by
  unfold cols560
  refine (broadcastInDim_apply _ _ _ _ (ix1 q) (fun a => match a with | ⟨0, _⟩ => rfl)).trans ?_
  exact select_zero _ _

/-- Column q of the 120 columns taken from a 16-column array is the array's column `n`, when entry q of the table
    is the word of a number `n` below 16. -/
theorem take120_apply (x : FVec F S65536x16 .f32) (tbl : IVec S120 32) (p : Fin 65536) (q : Fin 120)
    (n : Nat) (hn : n < 16) (h : (tbl (ix1 q)).toNat = n) :
    take120 x tbl (ix2 p q) = x (ix2 p ⟨n, hn⟩) :=
  gather_col_apply_of_lt (by decide) gather_S65536x16_S120x1_S65536x120_0_1_n_n_1_1_655361_wf x (cols120 tbl) p q n hn
    ((congrArg BitVec.toNat (cols120_apply tbl q)).trans h)

/-- Column q of the 560 columns taken from a 136-column array is the array's column `n`, when entry q of the table
    is the word of a number `n` below 136. -/
theorem take560_apply (X : FVec F S65536x136 .f32) (tbl : IVec S560 32) (p : Fin 65536) (q : Fin 560)
    (n : Nat) (hn : n < 136) (h : (tbl (ix1 q)).toNat = n) :
    take560 X tbl (ix2 p q) = X (ix2 p ⟨n, hn⟩) :=
  gather_col_apply_of_lt (by decide) gather_S65536x136_S560x1_S65536x560_0_1_n_n_1_1_655361_wf X (cols560 tbl) p q n hn
    ((congrArg BitVec.toNat (cols560_apply tbl q)).trans h)

/-! ## 3. The tables: every operand column is an earlier column -/

/-- Every left-operand column of a pair is one of the sixteen input columns. -/
theorem lit0_lt : ∀ q : Fin 120, (lit0 q).toNat < 16 := by decide
/-- Every right-operand column of a pair is one of the sixteen input columns. -/
theorem lit1_lt : ∀ q : Fin 120, (lit1 q).toNat < 16 := by decide
/-- Every left-operand column of a triple is one of the 136 columns the pairs' level ends with. -/
theorem lit2t_lt : ∀ q, q < 560 → (lit2t q).toNat < 136 := by decide +kernel
/-- Every right-operand column of a triple is one of the 136 columns the pairs' level ends with. -/
theorem lit3t_lt : ∀ q, q < 560 → (lit3t q).toNat < 136 := by decide +kernel

/-- Entry q of the pairs' left table, as the host constant holds it, is the column `tL2 q` of the row-by-row
    description: a rank-1 array holds its literal's entry q at index q. -/
theorem tabL2_apply (q : Fin 120) : (tabL2 (ix1 q)).toNat = tL2 q.val := by
  unfold tabL2 tL2
  rw [dif_pos q.isLt, show S120.rowMajor (ix1 q) = q from Fin.ext (Shape.rowMajor_val_one _)]

/-- Entry q of the pairs' right table is the column `tR2 q`. -/
theorem tabR2_apply (q : Fin 120) : (tabR2 (ix1 q)).toNat = tR2 q.val := by
  unfold tabR2 tR2
  rw [dif_pos q.isLt, show S120.rowMajor (ix1 q) = q from Fin.ext (Shape.rowMajor_val_one _)]

/-- Entry q of the triples' left table is the column `tL3 q`. -/
theorem tabL3_apply (q : Fin 560) : (tabL3 (ix1 q)).toNat = tL3 q.val := by
  unfold tabL3 tL3
  rw [show S560.rowMajor (ix1 q) = q from Fin.ext (Shape.rowMajor_val_one _)]

/-- Entry q of the triples' right table is the column `tR3 q`. -/
theorem tabR3_apply (q : Fin 560) : (tabR3 (ix1 q)).toNat = tR3 q.val := by
  unfold tabR3 tR3
  rw [show S560.rowMajor (ix1 q) = q from Fin.ext (Shape.rowMajor_val_one _)]

theorem tL2_lt (q : Fin 120) : tL2 q.val < 16 := by
  unfold tL2; rw [dif_pos q.isLt]; exact lit0_lt q
theorem tR2_lt (q : Fin 120) : tR2 q.val < 16 := by
  unfold tR2; rw [dif_pos q.isLt]; exact lit1_lt q
theorem tL3_lt (q : Fin 560) : tL3 q.val < 136 := lit2t_lt q.val q.isLt
theorem tR3_lt (q : Fin 560) : tR3 q.val < 136 := lit3t_lt q.val q.isLt

/-- Below 16 the row function reads the column it is asked for: its clamp to column 15 does nothing. -/
theorem rowOf_of_lt (x : FVec F S65536x16 .f32) (p : Fin 65536) (c : Nat) (h : c < 16) :
    rowOf x p c = x (ix2 p ⟨c, h⟩) :=
  congrArg x (congrArg (ix2 p) (Fin.ext (Nat.min_eq_left (by omega))))

/-! ## 4. The elementwise operations read at an index -/

/-- The mask at an index is the bit "the right interval is the smaller" of the four operand entries at that index:
    every operation in it (sum, product, difference, the three comparisons, or, and) acts entry by entry, and the two
    constants are scalars read everywhere. -/
theorem takeRightV_apply {S : Shape} (bc : S_.BroadcastsInDim S (![] : Fin 0 → Fin S.rank))
    (ll lu rl ru : FVec F S .f32) (i : S.Idx) :
    takeRightV bc ll lu rl ru i = takeRight (ll i) (lu i) (rl i) (ru i) := rfl

/-! ## 5. The pairs -/

/-- THE NEW COLUMN q OF THE PAIRS' LEVEL, lower and upper end together, in row p: the minimum of the input intervals
    in columns `tL2 q` (left) and `tR2 q` (right).  The four gathers read those two columns of `x` and of `y`; the
    mask there is `takeRight` of the four entries; each select keeps the right entry where the mask is set. -/
theorem pair_apply (x y : FVec F S65536x16 .f32) (p : Fin 65536) (q : Fin 120) :
    (select (mask2 x y) (take120 x tabR2) (take120 x tabL2) (ix2 p q),
     select (mask2 x y) (take120 y tabR2) (take120 y tabL2) (ix2 p q))
      = admMin (rowOf x p (tL2 q.val), rowOf y p (tL2 q.val)) (rowOf x p (tR2 q.val), rowOf y p (tR2 q.val)) := by
  have hxL := (take120_apply x tabL2 p q _ (tL2_lt q) (tabL2_apply q)).trans (rowOf_of_lt x p _ (tL2_lt q)).symm
  have hyL := (take120_apply y tabL2 p q _ (tL2_lt q) (tabL2_apply q)).trans (rowOf_of_lt y p _ (tL2_lt q)).symm
  have hxR := (take120_apply x tabR2 p q _ (tR2_lt q) (tabR2_apply q)).trans (rowOf_of_lt x p _ (tR2_lt q)).symm
  have hyR := (take120_apply y tabR2 p q _ (tR2_lt q) (tabR2_apply q)).trans (rowOf_of_lt y p _ (tR2_lt q)).symm
  unfold mask2 admMin
  rw [select_apply, select_apply, takeRightV_apply, hxL, hyL, hxR, hyR]

/-- THE PAIRS' LEVEL AT (p, c): the first 136 columns of the row-by-row description.  A column below 16 falls in the
    first piece of the concatenation, the input itself; column 16 + q falls in the second piece at q, the pair q. -/
theorem lvl2_apply (x y : FVec F S65536x16 .f32) (p : Fin 65536) (c : Fin 136) :
    (lvl2L x y (ix2 p c), lvl2U x y (ix2 p c)) = res2 (rowOf x p) (rowOf y p) c.val := by
  unfold res2 level
  by_cases h : c.val < 16
  · rw [if_pos h]
    show _ = (rowOf x p c.val, rowOf y p c.val)
    rw [rowOf_of_lt x p _ h, rowOf_of_lt y p _ h]
    refine Prod.ext ?_ ?_
    · exact concatenate_pair_apply_left 1 x _ concatenates_S65536x16_S65536x120_S65536x136_d1 (ix2 p c) rfl
        (ix2 p ⟨c.val, h⟩) (fun b => match b with | ⟨0, _⟩ => rfl | ⟨1, _⟩ => rfl)
    · exact concatenate_pair_apply_left 1 y _ concatenates_S65536x16_S65536x120_S65536x136_d1 (ix2 p c) rfl
        (ix2 p ⟨c.val, h⟩) (fun b => match b with | ⟨0, _⟩ => rfl | ⟨1, _⟩ => rfl)
  · rw [if_neg h]
    have hc : c.val - 16 < 120 := by have := c.isLt; omega
    refine Eq.trans (Prod.ext ?_ ?_) (pair_apply x y p ⟨c.val - 16, hc⟩)
    · exact concatenate_pair_apply_right 1 x _ concatenates_S65536x16_S65536x120_S65536x136_d1 (ix2 p c) rfl rfl
        (ix2 p ⟨c.val - 16, hc⟩) (fun b hb => match b with | ⟨0, _⟩ => rfl | ⟨1, _⟩ => absurd rfl hb)
        (show c.val - 16 + 16 = c.val by omega)
    · exact concatenate_pair_apply_right 1 y _ concatenates_S65536x16_S65536x120_S65536x136_d1 (ix2 p c) rfl rfl
        (ix2 p ⟨c.val - 16, hc⟩) (fun b hb => match b with | ⟨0, _⟩ => rfl | ⟨1, _⟩ => absurd rfl hb)
        (show c.val - 16 + 16 = c.val by omega)

/-! ## 6. The triples -/

/-- THE NEW COLUMN q OF THE TRIPLES' LEVEL in row p: the minimum of the intervals in columns `tL3 q` (left) and
    `tR3 q` (right) of the pairs' level.  Both columns are below 136, so the gathers read them unclamped, and what
    they read there is the pairs' level of the row-by-row description (`lvl2_apply`). -/
theorem triple_apply (x y : FVec F S65536x16 .f32) (p : Fin 65536) (q : Fin 560) :
    (select (mask3 (lvl2L x y) (lvl2U x y)) (take560 (lvl2L x y) tabR3) (take560 (lvl2L x y) tabL3) (ix2 p q),
     select (mask3 (lvl2L x y) (lvl2U x y)) (take560 (lvl2U x y) tabR3) (take560 (lvl2U x y) tabL3) (ix2 p q))
      = admMin (res2 (rowOf x p) (rowOf y p) (tL3 q.val)) (res2 (rowOf x p) (rowOf y p) (tR3 q.val)) := by
  have hL := lvl2_apply x y p ⟨tL3 q.val, tL3_lt q⟩
  have hR := lvl2_apply x y p ⟨tR3 q.val, tR3_lt q⟩
  have hxL := take560_apply (lvl2L x y) tabL3 p q _ (tL3_lt q) (tabL3_apply q)
  have hyL := take560_apply (lvl2U x y) tabL3 p q _ (tL3_lt q) (tabL3_apply q)
  have hxR := take560_apply (lvl2L x y) tabR3 p q _ (tR3_lt q) (tabR3_apply q)
  have hyR := take560_apply (lvl2U x y) tabR3 p q _ (tR3_lt q) (tabR3_apply q)
  rw [← hL, ← hR]
  unfold mask3 admMin
  rw [select_apply, select_apply, takeRightV_apply, hxL, hyL, hxR, hyR]

/-- THE REFERENCE'S RESULTS AT (p, c), lower and upper end together: all 696 columns of the row-by-row description.
    A column below 136 falls in the first piece, the pairs' level; column 136 + q in the second piece at q, the
    triple q. -/
theorem lvl3_apply (x y : FVec F S65536x16 .f32) (p : Fin 65536) (c : Fin 696) :
    (lvl3L x y (ix2 p c), lvl3U x y (ix2 p c)) = res3 (rowOf x p) (rowOf y p) c.val := by
  unfold res3 level
  by_cases h : c.val < 136
  · rw [if_pos h]
    refine Eq.trans (Prod.ext ?_ ?_) (lvl2_apply x y p ⟨c.val, h⟩)
    · exact concatenate_pair_apply_left 1 (lvl2L x y) _ concatenates_S65536x136_S65536x560_S65536x696_d1 (ix2 p c) rfl
        (ix2 p ⟨c.val, h⟩) (fun b => match b with | ⟨0, _⟩ => rfl | ⟨1, _⟩ => rfl)
    · exact concatenate_pair_apply_left 1 (lvl2U x y) _ concatenates_S65536x136_S65536x560_S65536x696_d1 (ix2 p c) rfl
        (ix2 p ⟨c.val, h⟩) (fun b => match b with | ⟨0, _⟩ => rfl | ⟨1, _⟩ => rfl)
  · rw [if_neg h]
    have hc : c.val - 136 < 560 := by have := c.isLt; omega
    refine Eq.trans (Prod.ext ?_ ?_) (triple_apply x y p ⟨c.val - 136, hc⟩)
    · exact concatenate_pair_apply_right 1 (lvl2L x y) _ concatenates_S65536x136_S65536x560_S65536x696_d1 (ix2 p c) rfl rfl
        (ix2 p ⟨c.val - 136, hc⟩) (fun b hb => match b with | ⟨0, _⟩ => rfl | ⟨1, _⟩ => absurd rfl hb)
        (show c.val - 136 + 136 = c.val by omega)
    · exact concatenate_pair_apply_right 1 (lvl2U x y) _ concatenates_S65536x136_S65536x560_S65536x696_d1 (ix2 p c) rfl rfl
        (ix2 p ⟨c.val - 136, hc⟩) (fun b hb => match b with | ⟨0, _⟩ => rfl | ⟨1, _⟩ => absurd rfl hb)
        (show c.val - 136 + 136 = c.val by omega)

/-! ## The components -/

/-- The lower ends after the pairs, at (p, c). -/
theorem lvl2L_apply (x y : FVec F S65536x16 .f32) (p : Fin 65536) (c : Fin 136) :
    lvl2L x y (ix2 p c) = (res2 (rowOf x p) (rowOf y p) c.val).1 := congrArg Prod.fst (lvl2_apply x y p c)
/-- The upper ends after the pairs, at (p, c). -/
theorem lvl2U_apply (x y : FVec F S65536x16 .f32) (p : Fin 65536) (c : Fin 136) :
    lvl2U x y (ix2 p c) = (res2 (rowOf x p) (rowOf y p) c.val).2 := congrArg Prod.snd (lvl2_apply x y p c)
/-- The reference's first result at (p, c): the lower end of interval c of row p. -/
theorem lvl3L_apply (x y : FVec F S65536x16 .f32) (p : Fin 65536) (c : Fin 696) :
    lvl3L x y (ix2 p c) = (res3 (rowOf x p) (rowOf y p) c.val).1 := congrArg Prod.fst (lvl3_apply x y p c)
/-- The reference's second result at (p, c): the upper end of interval c of row p. -/
theorem lvl3U_apply (x y : FVec F S65536x16 .f32) (p : Fin 65536) (c : Fin 696) :
    lvl3U x y (ix2 p c) = (res3 (rowOf x p) (rowOf y p) c.val).2 := congrArg Prod.snd (lvl3_apply x y p c)

end Cert.ReferenceIdeal.RefValue

end
-- ==== Proof.lean ====
/-
  The kernel and its reference compute the same 696 intervals per row: the proof of `Cert.Claim`.

  Both programs take two arrays of 65536 rows and 16 columns, the lower ends and the upper ends of sixteen intervals
  per row, and return two arrays of 65536 rows and 696 columns: per row, the minimum under the admissible order
  K_{α,β} (α and β the binary32 words of 0.4 and 0.6) of every subset of at most three of the row's sixteen intervals — the sixteen intervals
  themselves, the 120 pairs, the 560 triples (each triple the minimum of two pairs).  `Cert.IntervalMin.res3` is
  that row of 696 intervals as a function of the row's sixteen, stated over ANY float instance: it only says which
  operations are applied to which entries, in which order.

  THE KERNEL works block by block: grid point t stages rows 1024·t … 1024·t + 1023 of the two arguments, builds the
  pairs column strip by column strip from slices of the sixteen columns and the triples likewise from the pairs,
  stores the strips side by side into its two output blocks, and writes the blocks back.  One block's two results
  are `res3` of the block's rows (`Cert.KernelIdeal.BlockValue`), the 64 blocks tile the two result arrays, so
  after the run the arrays are `res3` row by row of the arguments (`Cert.KernelIdeal.ArrayValue.run`).

  THE REFERENCE works on whole arrays: it takes the left and the right operand columns of all pairs at once by two
  column gathers at literal index tables, forms their minimum elementwise, appends the 120 new columns, and repeats
  with the triples' two tables on the 136 columns it then has.  Its results are those terms of the arguments
  (`Cert.ReferenceIdeal.RefValue.run`), and read at an index they are again `res3` row by row: the tables the
  row-by-row description uses ARE the reference's literal tables (`lvl3L_apply`, `lvl3U_apply`).

  So at every index both programs' results are one and the same term `res3 (row of x) (row of y) column` of the
  argument arrays (`results_agree`).  Nothing about the arithmetic is used — neither that it is exact at the ideal
  instance nor that the inputs are finite —, so the algebraic claim never opens its precondition.  The kernel's
  idealization rewrote no operation, so `preserves` is trivial; the three frames are the generated frame runs, the
  reference's being its run with the results forgotten.
-/
import proofs.«113700_j66640712564831_2_alg».proof.Defs
import proofs.«113700_j66640712564831_2_alg».proof.Proof.KernelBlock
import proofs.«113700_j66640712564831_2_alg».proof.Proof.KernelArray
import proofs.«113700_j66640712564831_2_alg».proof.Proof.RefRun
import proofs.«113700_j66640712564831_2_alg».proof.Proof.RefRead
import proofs.«113700_j66640712564831_2_alg».proof.Proof.Gen.Kernel
import proofs.«113700_j66640712564831_2_alg».proof.Proof.Gen.Kernel.Skeleton
import proofs.«113700_j66640712564831_2_alg».proof.Proof.Gen.Kernel.Launch
import proofs.«113700_j66640712564831_2_alg».proof.Proof.Gen.Kernel.Points
import proofs.«113700_j66640712564831_2_alg».proof.Proof.Gen.Kernel.Frame
import proofs.«113700_j66640712564831_2_alg».proof.Proof.Gen.KernelIdeal
import proofs.«113700_j66640712564831_2_alg».proof.Proof.Gen.KernelIdeal.Skeleton
import proofs.«113700_j66640712564831_2_alg».proof.Proof.Gen.KernelIdeal.Launch
import proofs.«113700_j66640712564831_2_alg».proof.Proof.Gen.KernelIdeal.Points
import proofs.«113700_j66640712564831_2_alg».proof.Proof.Gen.KernelIdeal.Frame
import proofs.«113700_j66640712564831_2_alg».proof.Proof.Gen.KernelIdeal.Value
import proofs.«113700_j66640712564831_2_alg».proof.Proof.Gen.ReferenceIdeal
import proofs.«113700_j66640712564831_2_alg».proof.Proof.Gen.Pre_finite_inputs
import Idealize.ShloMosaic.Adequacy
import Idealize.ShloMosaic.Init

noncomputable section

namespace Cert.Proof

open Idealize.ShloMosaic Idealize.ShloMosaic.ValueIdx Idealize.SL.Sem

/-- THE TWO PROGRAMS' RESULTS ARE ONE FUNCTION OF THE ARGUMENTS: at row p, column q the reference's first result
    is the lower end of interval q of `res3` of row p (`lvl3L_apply`), which is what the kernel's first result array
    holds there by definition of `arrLo`; likewise the upper ends. -/
theorem results_agree (x y : FVec Ideal Cert.ReferenceIdeal.S65536x16 .f32) :
    Cert.ReferenceIdeal.RefValue.lvl3L x y = Cert.KernelIdeal.ArrayValue.arrLo x y ∧ Cert.ReferenceIdeal.RefValue.lvl3U x y = Cert.KernelIdeal.ArrayValue.arrUp x y := by
  constructor
  · funext j
    obtain ⟨p, q, rfl⟩ : ∃ p q, j = ix2 p q := ⟨j 0, j 1, eq_ix2 j⟩
    exact Cert.ReferenceIdeal.RefValue.lvl3L_apply x y p q
  · funext j
    obtain ⟨p, q, rfl⟩ : ∃ p q, j = ix2 p q := ⟨j 0, j 1, eq_ix2 j⟩
    exact Cert.ReferenceIdeal.RefValue.lvl3U_apply x y p q

/-- The kernel as printed runs and leaves its arguments unchanged: the generated frame run. -/
theorem frame_kernel : Cert.frame_Kernel := fun m ρ _ => Cert.Kernel.Gen.frame m ρ

/-- So does the kernel read at the ideal instance. -/
theorem frame_kernel_ideal : Cert.frame_KernelIdeal := fun m ρ _ => Cert.KernelIdeal.Gen.frame m ρ

/-- The reference runs and leaves its arguments unchanged: its run with the two results forgotten. -/
theorem frame_reference : Cert.frame_ReferenceIdeal := fun m ρ _ =>
  (θ_run Cert.ReferenceIdeal.defs _ _).mono (fun _ h c => (h c).2.2) (Cert.ReferenceIdeal.RefValue.run (F := Ideal) m ρ)

/-- The idealization rewrote no operation: there is nothing to preserve. -/
theorem preserves : Cert.preserves_Kernel_KernelIdeal := trivial

/-- From memories that agree on the two arguments both programs run, the kernel ends with its two result arrays at
    `arrLo` and `arrUp` of its arguments, and the reference ends with its two results at `lvl3L` and `lvl3U` of the
    same arguments — the same two arrays (`results_agree`).  The precondition is never used. -/
theorem algebraic : Cert.algebraic_KernelIdeal_ReferenceIdeal := by
  intro m ρ m' ρ' _ hagree
  refine ⟨_, _, Cert.KernelIdeal.ArrayValue.run (F := Ideal) (Cert.KernelIdeal.BlockValue.out0_A_2_eq (F := Ideal)) (Cert.KernelIdeal.BlockValue.out0_A_3_eq (F := Ideal)) m ρ, ?_⟩
  refine (θ_run Cert.ReferenceIdeal.defs _ _).mono (fun _ h c => ⟨(h c).1.trans ?_, (h c).2.1.trans ?_, (h c).2.2⟩)
    (Cert.ReferenceIdeal.RefValue.run (F := Ideal) m' ρ')
  · rw [(hagree c).1, (hagree c).2]
    exact (results_agree _ _).1
  · rw [(hagree c).1, (hagree c).2]
    exact (results_agree _ _).2

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
